-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x16 : Shape := ⟨2, ![16, 16]⟩
abbrev S100000x16 : Shape := ⟨2, ![100000, 16]⟩
abbrev S2x3200000 : Shape := ⟨2, ![2, 3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S100000x16 : S_.BroadcastsInDim S100000x16 (![] : Fin 0 → Fin S100000x16.rank)
  reducesTo_S100000x16_S_d0_1 : S100000x16.ReducesTo [0, 1] S_

variable [Facts]

def fn_part1 {F : FTy → Type} [FloatOps F] (main_arg4 : FVec F S16 .f32) (main_arg5 : FVec F S100000x16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S100000x16 .f32 := Host.absf main_arg5
  let main_cst_8 : FVec F S_ .f32 := constant S_ .f32 0x7F800000#32
  let main_v25 : FVec F S100000x16 .f32 := broadcastInDim S100000x16 ![] bcast_S_S100000x16 main_cst_8
  let main_v26 : IVec S100000x16 1 := cmpf .olt main_v24 main_v25
  let main_c_9 : IVec S_ 1 := constantI S_ 1 1#1
  let main_v27 : IVec S_ 1 := (fun x v => Host.reduce IntOp.andi x v reducesTo_S100000x16_S_d0_1 h_S_) main_v26 main_c_9
  let main_v28 : IVec S_ 1 := andi main_v23 main_v27
  main_v28

def fn {F : FTy → Type} [FloatOps F] (main_arg0 : FVec F S100000x512 .f32) (main_arg1 : FVec F S512x16 .f32) (main_arg2 : FVec F S16 .f32) (main_arg3 : FVec F S16x16 .f32) (main_arg4 : FVec F S16 .f32) (main_arg5 : FVec F S100000x16 .f32) (main_arg6 : IVec S2x3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_v13 main_v16
-- ==== Kernel.lean ====
abbrev S100000x512 : Shape := ⟨2, ![100000, 512]⟩
abbrev S512x16 : Shape := ⟨2, ![512, 16]⟩
abbrev S16 : Shape := ⟨1, ![16]⟩
abbrev S16x16 : Shape := ⟨2, ![16, 16]⟩
abbrev S100000x16 : Shape := ⟨2, ![100000, 16]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S4000x512 : Shape := ⟨2, ![4000, 512]⟩
abbrev S4000x1 : Shape := ⟨2, ![4000, 1]⟩
abbrev S4000x16 : Shape := ⟨2, ![4000, 16]⟩
abbrev S3300000x16 : Shape := ⟨2, ![3300000, 16]⟩
abbrev S12500x128 : Shape := ⟨2, ![12500, 128]⟩
abbrev S12500x8x1 : Shape := ⟨3, ![12500, 8, 1]⟩
abbrev S12500x8x16 : Shape := ⟨3, ![12500, 8, 16]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S10000x16 : Shape := ⟨2, ![10000, 16]⟩
abbrev S10000x1 : Shape := ⟨2, ![10000, 1]⟩

abbrev nBuf : Space → Nat
  | .hbm => 72
  | .vmem => 23
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S100000x16, .f32⟩
  | .hbm, ⟨6, _⟩ => ⟨S2x3200000, .i32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x16, .f32⟩
  | .hbm, ⟨23, _⟩ => ⟨S_, .i32⟩
  | .hbm, ⟨24, _⟩ => ⟨S3300000, .i32⟩
  | .hbm, ⟨25, _⟩ => ⟨S3300000, .i1⟩
  | .hbm, ⟨26, _⟩ => ⟨S_, .i32⟩
  | .hbm, ⟨27, _⟩ => ⟨S3300000, .i32⟩
  | .hbm, ⟨28, _⟩ => ⟨S3300000, .i32⟩
  | .hbm, ⟨29, _⟩ => ⟨S3300000, .i32⟩
  | .hbm, ⟨30, _⟩ => ⟨S3300000x1, .i32⟩
  | .hbm, ⟨31, _⟩ => ⟨S3300000x16, .f32⟩
  | .hbm, ⟨32, _⟩ => ⟨S_, .f32⟩
  | .hbm, ⟨33, _⟩ => ⟨S100000x16, .f32⟩
  | .hbm, ⟨34, _⟩ => ⟨S3300000x1, .i32⟩
  | .hbm, ⟨35, _⟩ => ⟨S100000x16, .f32⟩
  | .hbm, ⟨36, _⟩ => ⟨S12500x128, .f32⟩
  | .hbm, ⟨37, _⟩ => ⟨S12500x8x1, .f32⟩
  | .hbm, ⟨38, _⟩ => ⟨S12500x8x16, .f32⟩
  | .hbm, ⟨39, _⟩ => ⟨S12500x128, .f32⟩
  | .hbm, ⟨40, _⟩ => ⟨S1x16, .f32⟩
  | .hbm, ⟨41, _⟩ => ⟨S8x16, .f32⟩
  | .hbm, ⟨42, _⟩ => ⟨S128, .f32⟩
  | .hbm, ⟨43, _⟩ => ⟨S1x128, .f32⟩
  | .hbm, ⟨44, _⟩ => ⟨S12500x128, .f32⟩
  | .hbm, ⟨45, _⟩ => ⟨S100000x16, .f32⟩
  | .hbm, ⟨46, _⟩ => ⟨S100000x1, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S_, .f32⟩
  | .hbm, ⟨58, _⟩ => ⟨S100000x16, .f32⟩
  | .hbm, ⟨59, _⟩ => ⟨S3300000x1, .i32⟩
  | .hbm, ⟨60, _⟩ => ⟨S100000x16, .f32⟩
  | .hbm, ⟨61, _⟩ => ⟨S12500x128, .f32⟩
  | .hbm, ⟨62, _⟩ => ⟨S12500x8x1, .f32⟩
  | .hbm, ⟨63, _⟩ => ⟨S12500x8x16, .f32⟩
  | .hbm, ⟨64, _⟩ => ⟨S12500x128, .f32⟩
  | .hbm, ⟨65, _⟩ => ⟨S1x16, .f32⟩
  | .hbm, ⟨66, _⟩ => ⟨S8x16, .f32⟩
  | .hbm, ⟨67, _⟩ => ⟨S128, .f32⟩
  | .hbm, ⟨68, _⟩ => ⟨S1x128, .f32⟩
  | .hbm, ⟨69, _⟩ => ⟨S12500x128, .f32⟩
  | .hbm, ⟨70, _⟩ => ⟨S12500x128, .f32⟩
  | .hbm, ⟨71, _⟩ => ⟨S100000x16, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x1, .f32⟩
  | .local _ .vmem, ⟨4, _⟩ => ⟨S4000x1, .f32⟩
  | .local _ .vmem, ⟨5, _⟩ => ⟨S4000x16, .f32⟩
  | .local _ .vmem, ⟨6, _⟩ => ⟨S4000x16, .f32⟩
  | .local _ .vmem, ⟨7, _⟩ => ⟨S12500x128, .f32⟩
  | .local _ .vmem, ⟨8, _⟩ => ⟨S12500x128, .f32⟩
  | .local _ .vmem, ⟨9, _⟩ => ⟨S1x128, .f32⟩
  | .local _ .vmem, ⟨10, _⟩ => ⟨S12500x128, .f32⟩
  | .local _ .vmem, ⟨11, _⟩ => ⟨S10000x16, .f32⟩
  | .local _ .vmem, ⟨12, _⟩ => ⟨S10000x16, .f32⟩
  | .local _ .vmem, ⟨13, _⟩ => ⟨S16x16, .f32⟩
  | .local _ .vmem, ⟨14, _⟩ => ⟨S10000x1, .f32⟩
  | .local _ .vmem, ⟨15, _⟩ => ⟨S10000x1, .f32⟩
  | .local _ .vmem, ⟨16, _⟩ => ⟨S10000x16, .f32⟩
  | .local _ .vmem, ⟨17, _⟩ => ⟨S10000x16, .f32⟩
  | .local _ .vmem, ⟨18, _⟩ => ⟨S12500x128, .f32⟩
  | .local _ .vmem, ⟨19, _⟩ => ⟨S12500x128, .f32⟩
  | .local _ .vmem, ⟨20, _⟩ => ⟨S1x128, .f32⟩
  | .local _ .vmem, ⟨21, _⟩ => ⟨S12500x128, .f32⟩
  | .local _ .vmem, ⟨22, _⟩ => ⟨S12500x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_3 : Ref sig .tc := ⟨.hbm, 48, rfl⟩
abbrev main_v36 : Ref sig .tc := ⟨.hbm, 49, rfl⟩
abbrev main_v37 : Ref sig .tc := ⟨.hbm, 50, rfl⟩
abbrev main_c_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc3_sem3_0 : DmaSem sig := 21
abbrev cc3_sem4_0 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S12500x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S12500x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S12500x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S12500x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S12500x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S12500x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S12500x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x512_S4000x512_0_0 : ∀ a, (![0, 0] : Fin 2 → Nat) a + S4000x512.size a ≤ S4000x512.size a
  h_S4000x512 : 0 < S4000x512.numel
  inb_S512x16_S512x16_0_0 : ∀ a, (![0, 0] : Fin 2 → Nat) a + S512x16.size a ≤ S512x16.size a
  h_S512x16 : 0 < S512x16.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  bcast_S_S100000x16 : S_.BroadcastsInDim S100000x16 (![] : Fin 0 → Fin S100000x16.rank)
  shapeCasts_S100000x16_S12500x128 : S100000x16.ShapeCasts S12500x128
  shapeCasts_S100000_S12500x8x1 : S100000.ShapeCasts S12500x8x1
  bcast_S12500x8x1_S12500x8x16_0_1_2 : S12500x8x1.BroadcastsInDim S12500x8x16 (![0, 1, 2] : Fin 3 → Fin S12500x8x16.rank)
  shapeCasts_S12500x8x16_S12500x128 : S12500x8x16.ShapeCasts S12500x128
  shapeCasts_S16_S1x16 : S16.ShapeCasts S1x16
  bcast_S1x16_S8x16_0_1 : S1x16.BroadcastsInDim S8x16 (![0, 1] : Fin 2 → Fin S8x16.rank)
  shapeCasts_S8x16_S128 : S8x16.ShapeCasts S128
  shapeCasts_S128_S1x128 : S128.ShapeCasts S1x128
  inb_S12500x128_S12500x128_0_0 : ∀ a, (![0, 0] : Fin 2 → Nat) a + S12500x128.size a ≤ S12500x128.size a
  h_S12500x128 : 0 < S12500x128.numel
  shapeCasts_S12500x128_S12500x128 : S12500x128.ShapeCasts S12500x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S12500x128 : S1x128.Broadcasts S12500x128
  shapeCasts_S12500x128_S100000x16 : S12500x128.ShapeCasts S100000x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x16_S16x16_0_0 : ∀ a, (![0, 0] : Fin 2 → Nat) a + S16x16.size a ≤ S16x16.size a
  h_S16x16 : 0 < S16x16.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  scatter_S100000_S3300000x1_S3300000_n_0_0_1_wf : ScatterDims.WF S100000 S3300000x1 S3300000 [] [0] [0] 1
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x16.size a ≤ S100000x16.size a
  hwx0_3 : ∀ i : grid0.Coords, EltTy.bits .f32 = 32 ∨ (Rect.block (s := S100000x16) S4000x16.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S12500x128.size a ≤ S12500x128.size a
  hwx1_0 : ∀ i : grid1.Coords, EltTy.bits .f32 = 32 ∨ (Rect.block (s := S12500x128) S12500x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12500x128.size a ≤ S12500x128.size a
  hwx1_1 : ∀ i : grid1.Coords, EltTy.bits .f32 = 32 ∨ (Rect.block (s := S12500x128) S12500x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S12500x128.size a ≤ S12500x128.size a
  hwx1_3 : ∀ i : grid1.Coords, EltTy.bits .f32 = 32 ∨ (Rect.block (s := S12500x128) S12500x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x16.size a ≤ S100000x16.size a
  hwx2_3 : ∀ i : grid2.Coords, EltTy.bits .f32 = 32 ∨ (Rect.block (s := S100000x16) S10000x16.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S12500x128.size a ≤ S12500x128.size a
  hwx3_0 : ∀ i : grid3.Coords, EltTy.bits .f32 = 32 ∨ (Rect.block (s := S12500x128) S12500x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S12500x128.size a ≤ S12500x128.size a
  hwx3_1 : ∀ i : grid3.Coords, EltTy.bits .f32 = 32 ∨ (Rect.block (s := S12500x128) S12500x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S12500x128.size a ≤ S12500x128.size a
  hwx3_3 : ∀ i : grid3.Coords, EltTy.bits .f32 = 32 ∨ (Rect.block (s := S12500x128) S12500x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S12500x128.size a ≤ S12500x128.size a
  hwx3_4 : ∀ i : grid3.Coords, EltTy.bits .f32 = 32 ∨ (Rect.block (s := S12500x128) S12500x128.size (cc3_transform_4 i) (hinb3_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S12500x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v27) S12500x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S12500x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S10000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S12500x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v49) S12500x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S12500x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S12500x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x16 : Shape := ⟨2, ![16, 16]⟩
abbrev S100000x16 : Shape := ⟨2, ![100000, 16]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩

abbrev nBuf : Space → Nat
  | .hbm => 108
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S100000x16, .f32⟩
  | .hbm, ⟨6, _⟩ => ⟨S2x3200000, .i32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S100000, .f32⟩
  | .hbm, ⟨21, _⟩ => ⟨S100000x16, .f32⟩
  | .hbm, ⟨22, _⟩ => ⟨S_, .i32⟩
  | .hbm, ⟨23, _⟩ => ⟨S3300000, .i32⟩
  | .hbm, ⟨24, _⟩ => ⟨S3300000, .i1⟩
  | .hbm, ⟨25, _⟩ => ⟨S_, .i32⟩
  | .hbm, ⟨26, _⟩ => ⟨S3300000, .i32⟩
  | .hbm, ⟨27, _⟩ => ⟨S3300000, .i32⟩
  | .hbm, ⟨28, _⟩ => ⟨S3300000, .i32⟩
  | .hbm, ⟨29, _⟩ => ⟨S3300000x1, .i32⟩
  | .hbm, ⟨30, _⟩ => ⟨S3300000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000x16, .f32⟩
  | .hbm, ⟨50, _⟩ => ⟨S3300000x1, .f32⟩
  | .hbm, ⟨51, _⟩ => ⟨S3300000x16, .f32⟩
  | .hbm, ⟨52, _⟩ => ⟨S3300000x16, .f32⟩
  | .hbm, ⟨53, _⟩ => ⟨S_, .f32⟩
  | .hbm, ⟨54, _⟩ => ⟨S100000x16, .f32⟩
  | .hbm, ⟨55, _⟩ => ⟨S3300000x1, .i32⟩
  | .hbm, ⟨56, _⟩ => ⟨S100000x16, .f32⟩
  | .hbm, ⟨57, _⟩ => ⟨S1x16, .f32⟩
  | .hbm, ⟨58, _⟩ => ⟨S100000x16, .f32⟩
  | .hbm, ⟨59, _⟩ => ⟨S100000x16, .f32⟩
  | .hbm, ⟨60, _⟩ => ⟨S_, .f32⟩
  | .hbm, ⟨61, _⟩ => ⟨S100000x16, .f32⟩
  | .hbm, ⟨62, _⟩ => ⟨S100000x16, .f32⟩
  | .hbm, ⟨63, _⟩ => ⟨S100000x16, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000, .f32⟩
  | .hbm, ⟨82, _⟩ => ⟨S3300000, .f32⟩
  | .hbm, ⟨83, _⟩ => ⟨S_, .i32⟩
  | .hbm, ⟨84, _⟩ => ⟨S3300000, .i32⟩
  | .hbm, ⟨85, _⟩ => ⟨S3300000, .i1⟩
  | .hbm, ⟨86, _⟩ => ⟨S_, .i32⟩
  | .hbm, ⟨87, _⟩ => ⟨S3300000, .i32⟩
  | .hbm, ⟨88, _⟩ => ⟨S3300000, .i32⟩
  | .hbm, ⟨89, _⟩ => ⟨S3300000, .i32⟩
  | .hbm, ⟨90, _⟩ => ⟨S3300000x1, .i32⟩
  | .hbm, ⟨91, _⟩ => ⟨S3300000x16, .f32⟩
  | .hbm, ⟨92, _⟩ => ⟨S3300000x1, .f32⟩
  | .hbm, ⟨93, _⟩ => ⟨S3300000x16, .f32⟩
  | .hbm, ⟨94, _⟩ => ⟨S3300000x16, .f32⟩
  | .hbm, ⟨95, _⟩ => ⟨S_, .f32⟩
  | .hbm, ⟨96, _⟩ => ⟨S100000x16, .f32⟩
  | .hbm, ⟨97, _⟩ => ⟨S3300000x1, .i32⟩
  | .hbm, ⟨98, _⟩ => ⟨S100000x16, .f32⟩
  | .hbm, ⟨99, _⟩ => ⟨S1x16, .f32⟩
  | .hbm, ⟨100, _⟩ => ⟨S100000x16, .f32⟩
  | .hbm, ⟨101, _⟩ => ⟨S100000x16, .f32⟩
  | .hbm, ⟨102, _⟩ => ⟨S_, .f32⟩
  | .hbm, ⟨103, _⟩ => ⟨S100000x16, .f32⟩
  | .hbm, ⟨104, _⟩ => ⟨S100000x16, .f32⟩
  | .hbm, ⟨105, _⟩ => ⟨S100000x16, .f32⟩
  | .hbm, ⟨106, _⟩ => ⟨S100000x16, .f32⟩
  | .hbm, ⟨107, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩
abbrev main_v45 : Ref sig .tc := ⟨.hbm, 63, rfl⟩
abbrev main_c_7 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  dot_S100000x512_S512x16_S100000x16_1_0_0_1_n_n_wf : DotDims.WF S100000x512 S512x16 S100000x16 [1] [0] [0] [1] [] []
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.KSpec.lean ====
/-
  The kernel's value as ONE composed function of the argument arrays.

  A two-layer graph convolution with self-loops followed by a reparameterisation. With src / dst the edge lists
  extended by one self-loop per node, deg(n) the number of edges into n and dis = deg^(-1/2):
    layer(f, W, b)(n, k) = (sum over edges e into n of (sum_c f(src e, c) * W(c, k)) * dis(src e)) * dis(n) + b(k)
    h = max(layer(x, W1, b1), 0),   z = layer(h, W2, b2),   result = z + eps * exp(z / 2).
  The dense products scaled by dis are computed on row blocks (`linS`, stated index by index); the edge sums are a row
  gather followed by an additive scatter into zeros (`aggT`); the bias, the second scaling and the activations are
  computed on a lane-dense re-layout [100000,16] -> [12500,128] of the node tables (`packT`, `disDenseT`,
  `biasDenseT`, `unpackT`).
-/
import proofs.«162427_j48808008351905_2_alg».proof.Proof.Gen.KernelIdeal.Skeleton
import Idealize.ShloMosaic.PureOps.Ideal
import Idealize.ShloMosaic.Lib.ValueIdx

noncomputable section

open scoped BigOperators

namespace Cert.Gcn

open Cert.KernelIdeal Cert.KernelIdeal.Facts₀ Idealize.ShloMosaic Idealize.ShloMosaic.ValueIdx

/-- An array of 32-bit integer words of shape `s`. -/
abbrev IV (s : Shape) := IVec s 32
/-- An array of extended reals of shape `s`. -/
abbrev FV (s : Shape) := FVec Ideal s .f32

/-- Row `r` of the edge index followed by the self-loops 0, 1, …, 99999. -/
def edgeRow (r : Nat) (hs : S2x3200000.Slices ![r, 0] S1x3200000) (ei : IV S2x3200000) : IV S3300000 :=
  concatenate S3300000 0 [⟨S3200000, shapeCast _ (extractStridedSlice S1x3200000 ![r, 0] ei hs) shapeCasts_S1x3200000_S3200000⟩,
    ⟨S100000, iotaInDim S100000 32 0⟩] concatenates_S3200000_S100000_S3300000_d0

/-- The sources of the edges, self-loops appended. -/
def srcW (ei : IV S2x3200000) : IV S3300000 := edgeRow 0 slices_S2x3200000_S1x3200000_0_0 ei
/-- The destinations of the edges, self-loops appended. -/
def dstW (ei : IV S2x3200000) : IV S3300000 := edgeRow 1 slices_S2x3200000_S1x3200000_1_0 ei

/-- One index word per row: the vector as a column. -/
def colI (w : IV S3300000) : IV S3300000x1 := broadcastInDim S3300000x1 ![0] bcast_S3300000_S3300000x1_0 w

/-- A negative index counts from the end: w < 0 becomes w + 100000. -/
def normI (w : IV S3300000) : IV S3300000 :=
  select (cmpi .slt w (broadcastInDim S3300000 ![] bcast_S_S3300000 (constantI S_ 32 0#32)))
    (addi w (broadcastInDim S3300000 ![] bcast_S_S3300000 (constantI S_ 32 100000#32))) w

/-- deg(n): the number of edges whose destination is n (a sum of ones scattered into zeros). -/
def degT (dst : IV S3300000) : FV S100000 :=
  Host.scatterAdd (F := Ideal) scatter_S100000_S3300000x1_S3300000_n_0_0_1
    (broadcastInDim S100000 ![] bcast_S_S100000 (constant S_ .f32 0x00000000#32)) (colI dst)
    (broadcastInDim S3300000 ![] bcast_S_S3300000 (constant S_ .f32 0x3F800000#32))

/-- dis = deg^(-1/2). -/
def disT (dst : IV S3300000) : FV S100000 := Host.rsqrt (F := Ideal) (s := S100000) (φ := .f32) (degT dst)

/-- dis as a column [100000, 1]. -/
def disCol (d : FV S100000) : FV S100000x1 := shapeCast S100000x1 d shapeCasts_S100000_S100000x1

/-- The edge sum: row e of the gathered table is row src(e) of `f`; the rows are added into row dst(e) of zeros. -/
def aggT (src dst : IV S3300000) (f : FV S100000x16) : FV S100000x16 :=
  Host.scatterAdd (F := Ideal) scatter_S100000x16_S3300000x1_S3300000x16_1_0_0_1
    (broadcastInDim S100000x16 ![] bcast_S_S100000x16 (constant S_ .f32 0x00000000#32)) (colI dst)
    (Host.gather gather_S100000x16_S3300000x1_S3300000x16_1_0_n_n_0_1_116 f (colI (normI src)))

/-- Eight consecutive rows of 16 packed into one row of 128. -/
def packT (a : FV S100000x16) : FV S12500x128 := shapeCast S12500x128 a shapeCasts_S100000x16_S12500x128
/-- The packing undone. -/
def unpackT (a : FV S12500x128) : FV S100000x16 := shapeCast S100000x16 a shapeCasts_S12500x128_S100000x16

/-- dis repeated along each node's 16 lanes, in the packed layout. -/
def disDenseT (d : FV S100000) : FV S12500x128 :=
  shapeCast S12500x128 (broadcastInDim S12500x8x16 ![0, 1, 2] bcast_S12500x8x1_S12500x8x16_0_1_2
    (shapeCast S12500x8x1 d shapeCasts_S100000_S12500x8x1)) shapeCasts_S12500x8x16_S12500x128

/-- The bias tiled eight times along one packed row. -/
def biasDenseT (b : FV S16) : FV S1x128 :=
  shapeCast S1x128 (shapeCast S128 (broadcastInDim S8x16 ![0, 1] bcast_S1x16_S8x16_0_1
    (shapeCast S1x16 b shapeCasts_S16_S1x16)) shapeCasts_S8x16_S128) shapeCasts_S128_S1x128

/-- The dense product scaled row by row: (x · w)(n, k) · d(n). -/
def linS {M K : Nat} (x : (⟨2, ![M, K]⟩ : Shape).Idx → EReal) (w : (⟨2, ![K, 16]⟩ : Shape).Idx → EReal)
    (d : (⟨2, ![M, 1]⟩ : Shape).Idx → EReal) : (⟨2, ![M, 16]⟩ : Shape).Idx → EReal :=
  fun i => (∑ c : Fin K, x (ix2 (i 0) c) * w (ix2 c (i 1))) * d (ix2 (i 0) ⟨0, Nat.one_pos⟩)

/-- THE KERNEL'S VALUE: both layers and the reparameterisation, as one function of the seven arguments. -/
def KTerm (x : FV S100000x512) (W1 : FV S512x16) (b1 : FV S16) (W2 : FV S16x16) (b2 : FV S16) (eps : FV S100000x16)
    (ei : IV S2x3200000) : FV S100000x16 :=
  unpackT (Gen.k3_pay1 (F := Ideal)
    (packT (aggT (srcW ei) (dstW ei) (linS
      (unpackT (Gen.k1_pay1 (F := Ideal) (packT (aggT (srcW ei) (dstW ei) (linS x W1 (disCol (disT (dstW ei))))))
        (disDenseT (disT (dstW ei))) (biasDenseT b1)))
      W2 (disCol (disT (dstW ei))))))
    (disDenseT (disT (dstW ei))) (biasDenseT b2) (packT eps))

end Cert.Gcn

end
-- ==== Proof.LibScatterAdd.lean ====
/-
  An additive scatter of rows, read at one element.

  The host's accumulating scatter `x.at[idx].add(upd)` at the ideal instance is, at each element of the operand, that
  element plus the sum of the update elements whose destination is that element. For the two layouts a segment sum
  lowers to this file computes the destination and turns the sum over "updates that land here" into a sum over the
  update ROWS guarded by "this row's index word is my row":

  * rows: operand `[N, C]`, one index word per update row (indices `[E, 1]`), updates `[E, C]`. Update `(e, c)`
    lands on `(idx e, c)` when `0 ≤ idx e < N` (the word read signed, nothing clamped) and is dropped otherwise. So
    element `(n, k)` receives `∑ e, [idx e = n] · upd (e, k)`: only column `k` of the updates reaches column `k`.
  * scalars: operand `[N]`, indices `[E, 1]`, updates `[E]`. Update `e` lands on `idx e`; element `n`
    receives `∑ e, [idx e = n] · upd e`.

  Nothing here needs the summands to be finite: the sums are only re-indexed.
-/
import Idealize.ShloMosaic.PureOps.Ideal
import Idealize.ShloMosaic.Lib.ValueIdx

noncomputable section

open scoped BigOperators

namespace Idealize.ShloMosaic.ScatterAddAt

open Idealize.ShloMosaic Idealize.ShloMosaic.ValueIdx

/-! ## Rows: operand `[N, C]`, indices `[E, 1]`, updates `[E, C]` -/

section Rows
variable {N C E w : Nat}

/-- The dimension numbers of a row scatter: the updates' axis 1 is the window axis and goes to the operand's axis 1, the
    operand's axis 0 is the one the index word addresses, the index vector is the indices' axis 1 (of extent one). -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- The index word of update row `e`. -/
abbrev rowWord (idx : IVec ⟨2, ![E, 1]⟩ w) (e : Fin E) : Int := (idx (ix2 e ⟨0, Nat.one_pos⟩)).toInt

/-- On the addressed axis the window starts at the update row's index word, read signed. -/
theorem rowDims_start0 (j : (⟨2, ![E, C]⟩ : Shape).Idx) (idx : IVec ⟨2, ![E, 1]⟩ w) :
    (rowDims N C E wf).start j idx 0 = rowWord idx (j 0) := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the window axis the window starts at zero. -/
theorem rowDims_start1 (j : (⟨2, ![E, C]⟩ : Shape).Idx) (idx : IVec ⟨2, ![E, 1]⟩ w) :
    (rowDims N C E wf).start j idx 1 = 0 := by
  unfold ScatterDims.start
  rw [dif_neg (show ¬ (1 : Fin 2) ∈ (rowDims N C E wf).scatterDimsToOperandDims from by simp)]

/-- The addressed axis has no window coordinate. -/
theorem rowDims_window0 (j : (⟨2, ![E, C]⟩ : Shape).Idx) : (rowDims N C E wf).window j 0 = 0 := by
  unfold ScatterDims.window
  rw [dif_neg (show ¬ (0 : Fin 2) ∈ (rowDims N C E wf).sKept from by simp [ScatterDims.sKept, Shape.kept])]

/-- The window coordinate on the operand's axis 1 is the update's column. -/
theorem rowDims_window1 (j : (⟨2, ![E, C]⟩ : Shape).Idx) : (rowDims N C E wf).window j 1 = (j 1).val := by
  unfold ScatterDims.window
  rw [dif_pos (show (1 : Fin 2) ∈ (rowDims N C E wf).sKept from by simp [ScatterDims.sKept, Shape.kept])]
  rfl

/-- WHERE AN UPDATE LANDS: update `j = (e, c)` lands on operand element `i` exactly when row `e`'s index word is
    `i`'s row and `c` is `i`'s column. (A word outside `[0, N)` is no row: the update is dropped.) -/
theorem rowDims_resultIdx_eq_some_iff (j : (⟨2, ![E, C]⟩ : Shape).Idx) (idx : IVec ⟨2, ![E, 1]⟩ w)
    (i : (⟨2, ![N, C]⟩ : Shape).Idx) :
    (rowDims N C E wf).resultIdx? j idx = some i ↔ rowWord idx (j 0) = ((i 0).val : Int) ∧ (j 1).val = (i 1).val := by
  have hi0 := idx2_lt0 i
  have hi1 := idx2_lt1 i
  have hj1 := idx2_lt1 j
  unfold ScatterDims.resultIdx?
  split
  · next h =>
    rw [Option.some.injEq]
    have h0 := h 0
    rw [rowDims_start0, rowDims_window0] at h0
    constructor
    · intro hi
      have e0 : ((rowDims N C E wf).start j idx 0 + ((rowDims N C E wf).window j 0 : Int)).toNat = (i 0).val :=
        congrArg (fun f => (f 0).val) hi
      have e1 : ((rowDims N C E wf).start j idx 1 + ((rowDims N C E wf).window j 1 : Int)).toNat = (i 1).val :=
        congrArg (fun f => (f 1).val) hi
      rw [rowDims_start0, rowDims_window0] at e0
      rw [rowDims_start1, rowDims_window1] at e1
      omega
    · intro ⟨e0, e1⟩
      funext a
      refine Fin.ext ?_
      match a with
      | ⟨0, _⟩ =>
        show ((rowDims N C E wf).start j idx 0 + ((rowDims N C E wf).window j 0 : Int)).toNat = (i 0).val
        rw [rowDims_start0, rowDims_window0]; omega
      | ⟨1, _⟩ =>
        show ((rowDims N C E wf).start j idx 1 + ((rowDims N C E wf).window j 1 : Int)).toNat = (i 1).val
        rw [rowDims_start1, rowDims_window1]; omega
  · next h =>
    constructor
    · intro hn; cases hn
    · intro ⟨e0, e1⟩
      refine absurd (fun a => ?_) h
      match a with
      | ⟨0, _⟩ =>
        show 0 ≤ (rowDims N C E wf).start j idx 0 + ((rowDims N C E wf).window j 0 : Int)
          ∧ (rowDims N C E wf).start j idx 0 + ((rowDims N C E wf).window j 0 : Int) < ((N : Nat) : Int)
        rw [rowDims_start0, rowDims_window0]; omega
      | ⟨1, _⟩ =>
        show 0 ≤ (rowDims N C E wf).start j idx 1 + ((rowDims N C E wf).window j 1 : Int)
          ∧ (rowDims N C E wf).start j idx 1 + ((rowDims N C E wf).window j 1 : Int) < ((C : Nat) : Int)
        rw [rowDims_start1, rowDims_window1]; omega

/-- THE ROW SCATTER READ AT `(n, k)`: the operand's element plus, over the update rows whose index word is `n`, their
    column-`k` entries. -/
theorem rowScatterAdd_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowDims N C E wf) x idx upd (ix2 n k)
      = x (ix2 n k) + ∑ e : Fin E, if rowWord idx e = (n.val : Int) then upd (ix2 e k) else 0 := by
  unfold Ideal.hostScatterAdd
  congr 1
  rw [Finset.sum_filter, sum_idx2]
  refine Finset.sum_congr rfl fun e _ => ?_
  simp only [rowDims_resultIdx_eq_some_iff]
  by_cases hc : rowWord idx e = (n.val : Int)
  · rw [if_pos hc, Finset.sum_eq_single k]
    · exact if_pos ⟨hc, rfl⟩
    · intro b _ hb
      exact if_neg fun h => hb (Fin.ext h.2)
    · intro h; exact absurd (Finset.mem_univ k) h
  · rw [if_neg hc]
    exact Finset.sum_eq_zero fun b _ => if_neg fun h => hc h.1

end Rows

/-! ## Scalars: operand `[N]`, indices `[E, 1]`, updates `[E]` -/

section Scalars
variable {N E w : Nat}

/-- The dimension numbers of a scalar scatter: no window axis; the operand's one axis is addressed by the index word. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

/-- The window starts at the update's index word, read signed. -/
theorem vecDims_start0 (j : (⟨1, ![E]⟩ : Shape).Idx) (idx : IVec ⟨2, ![E, 1]⟩ w) :
    (vecDims N E wf).start j idx 0 = rowWord idx (j 0) := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- There is no window coordinate. -/
theorem vecDims_window0 (j : (⟨1, ![E]⟩ : Shape).Idx) : (vecDims N E wf).window j 0 = 0 := by
  unfold ScatterDims.window
  rw [dif_neg (show ¬ (0 : Fin 1) ∈ (vecDims N E wf).sKept from by simp [ScatterDims.sKept, Shape.kept])]

/-- WHERE AN UPDATE LANDS: update `e` lands on element `i` exactly when its index word is `i`. -/
theorem vecDims_resultIdx_eq_some_iff (j : (⟨1, ![E]⟩ : Shape).Idx) (idx : IVec ⟨2, ![E, 1]⟩ w)
    (i : (⟨1, ![N]⟩ : Shape).Idx) :
    (vecDims N E wf).resultIdx? j idx = some i ↔ rowWord idx (j 0) = ((i 0).val : Int) := by
  have hi0 : (i 0).val < N := (i 0).isLt
  unfold ScatterDims.resultIdx?
  split
  · next h =>
    rw [Option.some.injEq]
    have h0 := h 0
    rw [vecDims_start0, vecDims_window0] at h0
    constructor
    · intro hi
      have e0 : ((vecDims N E wf).start j idx 0 + ((vecDims N E wf).window j 0 : Int)).toNat = (i 0).val :=
        congrArg (fun f => (f 0).val) hi
      rw [vecDims_start0, vecDims_window0] at e0
      omega
    · intro e0
      funext a
      refine Fin.ext ?_
      match a with
      | ⟨0, _⟩ =>
        show ((vecDims N E wf).start j idx 0 + ((vecDims N E wf).window j 0 : Int)).toNat = (i 0).val
        rw [vecDims_start0, vecDims_window0]; omega
  · next h =>
    constructor
    · intro hn; cases hn
    · intro e0
      refine absurd (fun a => ?_) h
      match a with
      | ⟨0, _⟩ =>
        show 0 ≤ (vecDims N E wf).start j idx 0 + ((vecDims N E wf).window j 0 : Int)
          ∧ (vecDims N E wf).start j idx 0 + ((vecDims N E wf).window j 0 : Int) < ((N : Nat) : Int)
        rw [vecDims_start0, vecDims_window0]; omega

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE SCALAR SCATTER READ AT `n`: the operand's element plus the updates whose index word is `n`. -/
theorem vecScatterAdd_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if rowWord idx e = (n.val : Int) then upd (ix1 e) else 0 := by
  unfold Ideal.hostScatterAdd
  congr 1
  rw [Finset.sum_filter, sum_idx1]
  refine Finset.sum_congr rfl fun e _ => ?_
  simp only [vecDims_resultIdx_eq_some_iff]
  rfl

end Scalars

end Idealize.ShloMosaic.ScatterAddAt

end
-- ==== Proof.Formula.lean ====
/-
  The two arrangements of a graph-convolution layer, index by index, and the two results built from them.

  With hit(e, n) "edge e ends at node n", s(e) / t(e) the table rows read for the source / destination of edge e, and
  dis the inverse square roots of the degrees, a layer's pre-activation at (n, k) is
    scaled before and after the edge sum:   (0 + sum_e [hit e n] (sum_c f(s e, c) w(c, k)) dis(s e)) dis(n) + b(k)
    scaled edge by edge:                    (0 + sum_e [hit e n] (sum_c f(s e, c) w(c, k)) (dis(s e) dis(t e))) + b(k).
  Both results are  z + eps exp(z / 2)  with  z = layer(max(layer(x, W1, b1), 0), W2, b2).
-/
import proofs.«162427_j48808008351905_2_alg».proof.Proof.KSpec
import proofs.«162427_j48808008351905_2_alg».proof.Proof.LibScatterAdd

noncomputable section

open scoped BigOperators

namespace Cert.Gcn

open Cert.KernelIdeal Idealize.ShloMosaic Idealize.ShloMosaic.ValueIdx

/-- Scaled before and after the edge sum. -/
def layK {K : Nat} (hit : Fin 3300000 → Fin 100000 → Prop) [∀ e n, Decidable (hit e n)] (s : Fin 3300000 → Fin 100000)
    (dis : Fin 100000 → EReal) (f : Fin 100000 → Fin K → EReal) (w : Fin K → Fin 16 → EReal) (b : Fin 16 → EReal)
    (n : Fin 100000) (k : Fin 16) : EReal :=
  (0 + ∑ e : Fin 3300000, if hit e n then (∑ c : Fin K, f (s e) c * w c k) * dis (s e) else 0) * dis n + b k

/-- Scaled edge by edge. -/
def layR {K : Nat} (hit : Fin 3300000 → Fin 100000 → Prop) [∀ e n, Decidable (hit e n)] (s t : Fin 3300000 → Fin 100000)
    (dis : Fin 100000 → EReal) (f : Fin 100000 → Fin K → EReal) (w : Fin K → Fin 16 → EReal) (b : Fin 16 → EReal)
    (n : Fin 100000) (k : Fin 16) : EReal :=
  (0 + ∑ e : Fin 3300000, if hit e n then (∑ c : Fin K, f (s e) c * w c k) * (dis (s e) * dis (t e)) else 0) + b k

/-- Edge `e` ends at node `n`: its destination word, read signed, is `n`. -/
def hitE (ei : IV S2x3200000) (e : Fin 3300000) (n : Fin 100000) : Prop :=
  ScatterAddAt.rowWord (colI (dstW ei)) e = (n.val : Int)

instance (ei : IV S2x3200000) (e : Fin 3300000) (n : Fin 100000) : Decidable (hitE ei e n) := by
  unfold hitE; infer_instance

/-- The table row a lookup by the index vector `w` reads for edge `e`: the word made non-negative by wrapping,
    read signed and clamped into [0, 99999]. -/
def rowE (w : IV S3300000) (e : Fin 3300000) : Fin 100000 :=
  ⟨min ((colI (normI w)) (ix2 e ⟨0, Nat.one_pos⟩)).toInt.toNat (100000 - 1), by omega⟩

/-- dis at node `n`. -/
def disE (ei : IV S2x3200000) (n : Fin 100000) : EReal := disT (dstW ei) (ix1 n)

/-- The constant one half, as the programs spell it. -/
def half : EReal := Ideal.ofBits .f32 0x3F000000#32

/-- The kernel's arrangement of the whole computation at (n, k). -/
def outK (ei : IV S2x3200000) (x : FV S100000x512) (W1 : FV S512x16) (b1 : FV S16) (W2 : FV S16x16) (b2 : FV S16)
    (eps : FV S100000x16) (n : Fin 100000) (k : Fin 16) : EReal :=
  let h : Fin 100000 → Fin 16 → EReal := fun n' c' =>
    max (layK (hitE ei) (rowE (srcW ei)) (disE ei) (fun a c => x (ix2 a c)) (fun c j => W1 (ix2 c j)) (fun j => b1 (ix1 j)) n' c') 0
  let z : EReal := layK (hitE ei) (rowE (srcW ei)) (disE ei) h (fun c j => W2 (ix2 c j)) (fun j => b2 (ix1 j)) n k
  z + eps (ix2 n k) * Ideal.exp (half * z)

/-- The reference's arrangement of the whole computation at (n, k). -/
def outR (ei : IV S2x3200000) (x : FV S100000x512) (W1 : FV S512x16) (b1 : FV S16) (W2 : FV S16x16) (b2 : FV S16)
    (eps : FV S100000x16) (n : Fin 100000) (k : Fin 16) : EReal :=
  let h : Fin 100000 → Fin 16 → EReal := fun n' c' =>
    max (layR (hitE ei) (rowE (srcW ei)) (rowE (dstW ei)) (disE ei) (fun a c => x (ix2 a c)) (fun c j => W1 (ix2 c j))
      (fun j => b1 (ix1 j)) n' c') 0
  let z : EReal := layR (hitE ei) (rowE (srcW ei)) (rowE (dstW ei)) (disE ei) h (fun c j => W2 (ix2 c j)) (fun j => b2 (ix1 j)) n k
  z + eps (ix2 n k) * Ideal.exp (half * z)

end Cert.Gcn

end
-- ==== Proof.KRun.lean ====
/-
  The kernel program's run with its result array named.

  Every weakly fair execution of the kernel program terminates without a fault; in the final state the result
  array holds what the last host stretch leaves in it (the contents `W9` at the last of the nine segment boundaries
  of the program: five host stretches and four kernel regions in between), and the seven argument arrays are as
  launched. The frame certificate proves this run and keeps only the arguments; here the same run keeps the result
  array too, read off the final thread state, which holds every unscoped buffer at the last boundary's contents.
-/
import proofs.«162427_j48808008351905_2_alg».proof.Proof.Gen.KernelIdeal.Frame

set_option maxRecDepth 16384

noncomputable section

namespace Cert.Gcn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the nine segments from any memory with zero counters: it terminates, nothing faults, the result array
    ends at the last boundary's contents and every argument array as launched. -/
theorem run_named : θ_run defs (onTc (τ := τ) (main (F := F))) ⟨m, fun _ => 0, ρ⟩ (fun r => ∀ c : Dev nD,
      r.2.mem ((c.tc : Thread nD τ).loc main_v56) = W9 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v56 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.Gcn.KRun

end
-- ==== Proof.LibSumExchange.lean ====
/-
  Two finite sums of products on the extended reals, taken in either order.

  The extended reals are not a ring: a product does not distribute over a sum when an infinity meets a
  sum of opposite signs. On entries that are real numbers everything happens inside ℝ, where
      ∑ b, ∑ a, u a · y a b  =  ∑ a, (∑ b, y a b) · u a
  is the exchange of two finite sums followed by pulling the factor `u a`, which does not depend on
  `b`, out of the inner sum. The statement below keeps the `0 +` a sum started from zero carries.
-/
import Mathlib.Data.EReal.Operations
import Mathlib.Algebra.BigOperators.Ring.Finset
import Mathlib.Algebra.BigOperators.Group.Finset.Sigma

namespace Cert.SumExchange

open scoped BigOperators

/-- An extended real that is a real number. -/
def IsReal (x : EReal) : Prop := ∃ r : ℝ, x = (r : EReal)

/-- A product of two real numbers is a real number. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- The coercion ℝ → EReal commutes with a finite sum. -/
theorem coe_sum {ι : Type*} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-- Summing `u a · y a b` over `a` and then over `b` is summing, over `a`, the row sum `∑ b, y a b`
    (started from zero) times `u a` — on real entries. -/
theorem sum_sum_mul_eq {A B : Type*} [Fintype A] [Fintype B] (y : A → B → EReal) (u : A → EReal)
    (hy : ∀ a b, IsReal (y a b)) (hu : ∀ a, IsReal (u a)) :
    ∑ b, ∑ a, u a * y a b = ∑ a, (0 + ∑ b, y a b) * u a := by
  choose y' hy' using hy
  choose u' hu' using hu
  simp only [hy', hu', zero_add, ← EReal.coe_mul, coe_sum]
  refine congrArg (fun r : ℝ => (r : EReal)) ?_
  rw [Finset.sum_comm]
  refine Finset.sum_congr rfl fun a _ => ?_
  rw [Finset.sum_mul]
  exact Finset.sum_congr rfl fun b _ => mul_comm _ _

end Cert.SumExchange
-- ==== Proof.Law.lean ====
/-
  The two arrangements of a layer agree on real entries.

  Where edge e ends at node n the destination row t(e) is n, so dis(t e) = dis(n) is a common factor of every term of
  the edge sum into n:
      sum_e [hit e n] y_e (dis(s e) dis(t e))  =  (sum_e [hit e n] y_e dis(s e)) dis(n).
  Pulling a factor out of a sum is a law of the real numbers and not of the extended reals (an infinity meeting
  a sum of mixed signs breaks it), so the statement asks every entry to be a real number; the sums are then sums
  of reals and the law is distributivity in ℝ. The two results follow layer by layer: max(·, 0) of a real is real,
  so the second layer again works on real entries.
-/
import proofs.«162427_j48808008351905_2_alg».proof.Proof.Formula
import proofs.«162427_j48808008351905_2_alg».proof.Proof.LibSumExchange

noncomputable section

open scoped BigOperators

namespace Cert.Gcn

open Cert.KernelIdeal Cert.SumExchange Idealize.ShloMosaic Idealize.ShloMosaic.ValueIdx

theorem isReal_zero : IsReal 0 := ⟨0, EReal.coe_zero.symm⟩

theorem isReal_add {x y : EReal} (hx : IsReal x) (hy : IsReal y) : IsReal (x + y) := by
  obtain ⟨r, rfl⟩ := hx
  obtain ⟨s, rfl⟩ := hy
  exact ⟨r + s, (EReal.coe_add r s).symm⟩

theorem isReal_max {x y : EReal} (hx : IsReal x) (hy : IsReal y) : IsReal (max x y) := by
  rcases max_choice x y with h | h <;> rw [h] <;> assumption

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact isReal_add (h a (Finset.mem_insert_self a s)) (ih fun i hi => h i (Finset.mem_insert_of_mem hi))

theorem isReal_ite {p : Prop} [Decidable p] {x y : EReal} (hx : IsReal x) (hy : IsReal y) : IsReal (if p then x else y) := by
  split <;> assumption

/-- A guarded real is the coercion of the guarded number. -/
theorem ite_coe (p : Prop) [Decidable p] (a : ℝ) : (if p then (a : EReal) else 0) = ((if p then a else 0 : ℝ) : EReal) := by
  split <;> simp

/-- ONE LAYER: on real entries, scaling before and after the edge sum is scaling edge by edge, provided every edge
    into n has destination row n. -/
theorem layK_eq_layR {K : Nat} (hit : Fin 3300000 → Fin 100000 → Prop) [∀ e n, Decidable (hit e n)]
    (s t : Fin 3300000 → Fin 100000) (dis : Fin 100000 → EReal) (f : Fin 100000 → Fin K → EReal)
    (w : Fin K → Fin 16 → EReal) (b : Fin 16 → EReal) (n : Fin 100000) (k : Fin 16)
    (hdis : ∀ a, IsReal (dis a)) (hf : ∀ a c, IsReal (f a c)) (hw : ∀ c j, IsReal (w c j))
    (hhit : ∀ e, hit e n → t e = n) :
    layK hit s dis f w b n k = layR hit s t dis f w b n k := by
  choose d hd using hdis
  choose f' hf' using hf
  choose w' hw' using hw
  unfold layK layR
  refine congrArg (fun y : EReal => y + b k) ?_
  simp only [hd, hf', hw', ← EReal.coe_mul, coe_sum, zero_add, ite_coe]
  refine congrArg (fun r : ℝ => (r : EReal)) ?_
  rw [Finset.sum_mul]
  refine Finset.sum_congr rfl fun e _ => ?_
  by_cases h : hit e n
  · rw [if_pos h, if_pos h, hhit e h]; ring
  · rw [if_neg h, if_neg h, zero_mul]

/-- A layer's pre-activation is real on real entries. -/
theorem layR_isReal {K : Nat} (hit : Fin 3300000 → Fin 100000 → Prop) [∀ e n, Decidable (hit e n)]
    (s t : Fin 3300000 → Fin 100000) (dis : Fin 100000 → EReal) (f : Fin 100000 → Fin K → EReal)
    (w : Fin K → Fin 16 → EReal) (b : Fin 16 → EReal) (n : Fin 100000) (k : Fin 16)
    (hdis : ∀ a, IsReal (dis a)) (hf : ∀ a c, IsReal (f a c)) (hw : ∀ c j, IsReal (w c j)) (hb : ∀ j, IsReal (b j)) :
    IsReal (layR hit s t dis f w b n k) := by
  unfold layR
  refine isReal_add (isReal_add isReal_zero (isReal_sum _ _ fun e _ => isReal_ite ?_ isReal_zero)) (hb k)
  exact IsReal.mul (isReal_sum _ _ fun c _ => IsReal.mul (hf _ _) (hw _ _)) (IsReal.mul (hdis _) (hdis _))

/-- THE TWO RESULTS AGREE at every element, on real entries with real inverse square roots of the degrees, when
    every edge into a node has that node as its destination row. -/
theorem outK_eq_outR (ei : IV S2x3200000) (x : FV S100000x512) (W1 : FV S512x16) (b1 : FV S16) (W2 : FV S16x16)
    (b2 : FV S16) (eps : FV S100000x16) (n : Fin 100000) (k : Fin 16)
    (hdis : ∀ a, IsReal (disE ei a)) (hx : ∀ i, IsReal (x i)) (hW1 : ∀ i, IsReal (W1 i)) (hb1 : ∀ i, IsReal (b1 i))
    (hW2 : ∀ i, IsReal (W2 i))
    (hhit : ∀ e a, hitE ei e a → rowE (dstW ei) e = a) :
    outK ei x W1 b1 W2 b2 eps n k = outR ei x W1 b1 W2 b2 eps n k := by
  have h1 : ∀ n' c', layK (hitE ei) (rowE (srcW ei)) (disE ei) (fun a c => x (ix2 a c)) (fun c j => W1 (ix2 c j))
        (fun j => b1 (ix1 j)) n' c'
      = layR (hitE ei) (rowE (srcW ei)) (rowE (dstW ei)) (disE ei) (fun a c => x (ix2 a c)) (fun c j => W1 (ix2 c j))
        (fun j => b1 (ix1 j)) n' c' := fun n' c' =>
    layK_eq_layR _ _ _ _ _ _ _ n' c' hdis (fun _ _ => hx _) (fun _ _ => hW1 _) (fun e => hhit e n')
  unfold outK outR
  simp only [h1]
  rw [layK_eq_layR _ _ (rowE (dstW ei)) _ _ _ _ n k hdis
    (fun a c => isReal_max (layR_isReal _ _ _ _ _ _ _ a c hdis (fun _ _ => hx _) (fun _ _ => hW1 _) (fun _ => hb1 _)) isReal_zero)
    (fun _ _ => hW2 _) (fun e => hhit e n)]

end Cert.Gcn

end
-- ==== Proof.Finite.lean ====
/-
  From the precondition to real entries.

  The precondition says, of each of the six float arguments, that |x| < +∞ at every element (an "all" over the array of
  comparisons, the six answers joined by "and"). An extended real whose absolute value max(x, −x) is below +∞ is
  neither infinity: it is a real number.
-/
import proofs.«162427_j48808008351905_2_alg».proof.Proof.Gen.Pre_finite_inputs
import proofs.«162427_j48808008351905_2_alg».proof.Proof.LibSumExchange
import Idealize.ShloMosaic.Lib.ReduceAll
import Idealize.ShloMosaic.Lib.ValueIdx
import Idealize.ShloMosaic.PureOps.Ideal.Laws

noncomputable section

namespace Cert.Gcn

open Cert.Pre_finite_inputs Cert.SumExchange Idealize.ShloMosaic Idealize.ShloMosaic.ValueIdx

/-- The word of +∞. -/
theorem top_word : Ideal.ofBits .f32 0x7F800000#32 = ⊤ := by simp [Ideal.ofBits, Ideal.ieee]

/-- An extended real with |x| < +∞ is a real number. -/
theorem isReal_of_abs_lt_top (x : EReal) (h : Ideal.cmp .olt (max x (-x)) ⊤ = 1#1) : IsReal x := by
  have h2 : BitVec.ofBool (decide (max x (-x) < ⊤)) = 1#1 := h
  have h' : max x (-x) < ⊤ := by
    by_contra hn
    rw [decide_eq_false hn] at h2
    exact absurd h2 (by decide)
  induction x using EReal.rec with
  | bot => simp at h'
  | coe r => exact ⟨r, rfl⟩
  | top => simp at h'

instance : Subsingleton S_.Idx := ⟨fun a b => funext fun d => d.elim0⟩

/-- One argument: if the "all" of |x| < +∞ over the array is true, every element is a real number. -/
theorem isReal_of_all {s : Shape} {axes : List (Fin s.rank)} (x : FVec Ideal s .f32) (top : FVec Ideal s .f32)
    (htop : ∀ i, top i = Ideal.ofBits .f32 0x7F800000#32) (init : IVec S_ 1)
    (hr : s.ReducesTo axes S_) (hu : 0 < S_.numel) (j : S_.Idx)
    (e : Host.reduce IntOp.andi (cmpf .olt (Host.absf x) top) init hr hu j = 1#1) (i : s.Idx) : IsReal (x i) := by
  have := Host.reduce_andi_all _ init hr hu j e i
  refine isReal_of_abs_lt_top (x i) ?_
  rw [← top_word, ← htop i]
  exact this

/-- THE PRECONDITION GIVES REAL ENTRIES: every element of each of the six float arguments is a real number. -/
theorem reals_of_pre (x : FVec Ideal S100000x512 .f32) (W1 : FVec Ideal S512x16 .f32) (b1 : FVec Ideal S16 .f32)
    (W2 : FVec Ideal S16x16 .f32) (b2 : FVec Ideal S16 .f32) (eps : FVec Ideal S100000x16 .f32) (ei : IVec S2x3200000 32)
    (h : fn (F := Ideal) x W1 b1 W2 b2 eps ei = fun _ => 1#1) :
    (∀ i, IsReal (x i)) ∧ (∀ i, IsReal (W1 i)) ∧ (∀ i, IsReal (b1 i)) ∧ (∀ i, IsReal (W2 i)) ∧ (∀ i, IsReal (b2 i))
      ∧ (∀ i, IsReal (eps i)) := by
  have h0 := congrFun h ix0
  dsimp only [fn, fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨isReal_of_all x _ (fun _ => rfl) _ _ _ _ h0', isReal_of_all W1 _ (fun _ => rfl) _ _ _ _ h1,
    isReal_of_all b1 _ (fun _ => rfl) _ _ _ _ h2, isReal_of_all W2 _ (fun _ => rfl) _ _ _ _ h3,
    isReal_of_all b2 _ (fun _ => rfl) _ _ _ _ h4, isReal_of_all eps _ (fun _ => rfl) _ _ _ _ h5⟩

end Cert.Gcn

end
-- ==== Proof.IdxFacts.lean ====
/-
  What the index words say: an edge into node n has destination row n, every node has its self-loop, and so the
  inverse square roots of the degrees are real numbers.

  * A lookup reads, for edge e, the row "word made non-negative by wrapping (w < 0 becomes w + 100000), read signed,
    clamped into [0, 99999]". The edge sum adds edge e into node n exactly when the destination word, read signed, is n.
    When that holds the word is already in [0, 99999]: wrapping and clamping leave it alone, and the lookup by
    destination reads row n.
  * The destination list ends with the self-loops 0, 1, …, 99999: its entry 3200000 + n is the word n. So node n
    has at least one edge into it, its degree (a sum of ones over the edges into it) is a real number ≥ 1, and its
    inverse square root is a real number.
-/
import proofs.«162427_j48808008351905_2_alg».proof.Proof.Formula
import proofs.«162427_j48808008351905_2_alg».proof.Proof.Law
import Idealize.ShloMosaic.Lib.Pipeline.Value
import Idealize.ShloMosaic.Lib.Affine
import Idealize.ShloMosaic.PureOps.Ideal.Laws

noncomputable section

open scoped BigOperators

namespace Cert.Gcn

open Cert.KernelIdeal Cert.KernelIdeal.Facts₀ Cert.SumExchange Idealize.ShloMosaic Idealize.ShloMosaic.ValueIdx

/-- The column of an index vector at row e is the vector's entry e. -/
theorem colI_apply (w : IV S3300000) (e : Fin 3300000) : colI w (ix2 e ⟨0, Nat.one_pos⟩) = w (ix1 e) := by
  unfold colI
  refine broadcastInDim_apply _ _ _ _ (ix1 e) fun a => ?_
  obtain rfl : a = 0 := Subsingleton.elim _ _
  rw [if_neg (by decide)]
  rfl

/-- Wrapping at entry e: a negative word gains 100000, any other word is kept. -/
theorem normI_apply (w : IV S3300000) (e : Fin 3300000) :
    normI w (ix1 e) = if IntOp.cmpi .slt (w (ix1 e)) 0#32 = 1#1 then IntOp.addi (w (ix1 e)) 100000#32 else w (ix1 e) := rfl

/-- A word that reads as a node number is kept by wrapping and by clamping. -/
theorem row_of_word (w : IV S3300000) (e : Fin 3300000) (a : Fin 100000) (h : (w (ix1 e)).toInt = (a.val : Int)) :
    rowE w e = a := by
  unfold rowE
  refine Fin.ext ?_
  show min ((colI (normI w)) (ix2 e ⟨0, Nat.one_pos⟩)).toInt.toNat (100000 - 1) = a.val
  rw [colI_apply, normI_apply, if_neg, h]
  · have := a.isLt; omega
  · rw [IntOp.cmpi_slt, h]
    show ¬ ((a.val : Int) < 0)
    omega

/-- An edge into node `a` has destination row `a`. -/
theorem row_of_hit (ei : IV S2x3200000) (e : Fin 3300000) (a : Fin 100000) (h : hitE ei e a) : rowE (dstW ei) e = a := by
  refine row_of_word _ e a ?_
  unfold hitE ScatterAddAt.rowWord at h
  rw [colI_apply] at h
  exact h

/-- The destination list's entry 3200000 + n is the self-loop's word n. -/
theorem dstW_loop (ei : IV S2x3200000) (n : Fin 100000) :
    dstW ei (ix1 (⟨3200000 + n.val, by have := n.isLt; omega⟩ : Fin 3300000)) = BitVec.ofNat 32 n.val := by
  unfold dstW edgeRow
  refine (concatenate_pair_apply_right (t := S3300000) (s₁ := S3200000) (s₂ := S100000) (0 : Fin 1) _ _ _
    (ix1 (⟨3200000 + n.val, by have := n.isLt; omega⟩ : Fin 3300000)) rfl rfl (ix1 n) (fun b hb => ?_) ?_).trans rfl
  · exact absurd (Subsingleton.elim _ _) hb
  · show n.val + 3200000 = 3200000 + n.val
    omega

/-- Every node has its self-loop among the edges into it. -/
theorem hit_loop (ei : IV S2x3200000) (n : Fin 100000) :
    hitE ei (⟨3200000 + n.val, by have := n.isLt; omega⟩ : Fin 3300000) n := by
  unfold hitE ScatterAddAt.rowWord
  rw [colI_apply, dstW_loop]
  have hn := n.isLt
  have h1 : (BitVec.ofNat 32 n.val).toNat = n.val := by
    rw [BitVec.toNat_ofNat]; exact Nat.mod_eq_of_lt (by omega)
  rw [BitVec.toInt_eq_toNat_cond, h1, if_pos (by omega)]

/-- The word of one. -/
theorem one_word : Ideal.ofBits .f32 0x3F800000#32 = 1 := by
  simp [Ideal.ofBits, Ideal.ieee]
  norm_cast
  norm_num

/-- Ones added into z at the nodes the words of dw name: element n receives one term per word equal to n. -/
theorem vecS (z : FV S100000) (dw : IV S3300000) (U : FV S3300000) (n : Fin 100000) :
    Host.scatterAdd (F := Ideal) scatter_S100000_S3300000x1_S3300000_n_0_0_1 z (colI dw) U (ix1 n)
      = z (ix1 n) + ∑ e : Fin 3300000, if ScatterAddAt.rowWord (colI dw) e = (n.val : Int) then U (ix1 e) else 0 :=
  ScatterAddAt.vecScatterAdd_apply scatter_S100000_S3300000x1_S3300000_n_0_0_1_wf z (colI dw) U n

/-- The degree of node n is the number of edges into it. -/
theorem degT_apply (ei : IV S2x3200000) (n : Fin 100000) :
    degT (dstW ei) (ix1 n) = 0 + ∑ e : Fin 3300000, if hitE ei e n then (1 : EReal) else 0 := by
  refine (vecS _ (dstW ei) _ n).trans ?_
  refine congrArg₂ (fun a b : EReal => a + b) Ideal.ofBits_zero_f32 (Finset.sum_congr rfl fun e _ => ?_)
  exact if_congr Iff.rfl one_word rfl

/-- The host's inverse square root at one element, for any vector. -/
theorem hostRsqrt_apply (v : FV S100000) (i : S100000.Idx) :
    Host.rsqrt (F := Ideal) (s := S100000) (φ := .f32) v i = Ideal.rsqrt (v i) := rfl

/-- dis at a node is the inverse square root of its degree. -/
theorem disT_apply (dst : IV S3300000) (i : S100000.Idx) : disT dst i = Ideal.rsqrt (degT dst i) :=
  hostRsqrt_apply (degT dst) i

/-- A sum of ones over the edges into a node is a real number at least one when one edge is known to end there. -/
theorem count_real (p : Fin 3300000 → Prop) [DecidablePred p] (e0 : Fin 3300000) (h0 : p e0) :
    ∃ r : ℝ, 1 ≤ r ∧ (∑ e : Fin 3300000, if p e then (1 : EReal) else 0) = (r : EReal) := by
  refine ⟨∑ e : Fin 3300000, if p e then (1 : ℝ) else 0, ?_, ?_⟩
  · have h1 := Finset.single_le_sum (f := fun e : Fin 3300000 => (if p e then (1 : ℝ) else 0))
      (fun e _ => by split <;> norm_num) (Finset.mem_univ e0)
    rw [if_pos h0] at h1
    exact h1
  · rw [← coe_sum]
    refine Finset.sum_congr rfl fun e _ => ?_
    split <;> simp

/-- dis is real: the degree is a real number at least one (the self-loop), and the inverse square root of a positive
    real is real. -/
theorem disE_isReal (ei : IV S2x3200000) (n : Fin 100000) : IsReal (disE ei n) := by
  obtain ⟨r, hr, he⟩ := count_real (fun e => hitE ei e n) _ (hit_loop ei n)
  show IsReal (disT (dstW ei) (ix1 n))
  rw [disT_apply, degT_apply, zero_add, he, Ideal.rsqrt_coe, if_neg (by linarith), if_neg (by linarith)]
  exact ⟨_, rfl⟩

end Cert.Gcn

end
-- ==== Proof.Assemble.lean ====
/-
  The claims assembled from the pieces.

  Both programs run. The kernel program's result array ends at `KTerm` of its seven argument arrays (the chain of
  its four regions and the host stretches between them); element (n, k) of `KTerm` is the kernel's arrangement
  `outK` of the two graph-convolution layers and the reparameterisation, and element (n, k) of the reference's result
  is the reference's arrangement `outR`. On real entries (the precondition), with real inverse square roots of the
  degrees and every edge into a node having that node as its destination row, the two arrangements are one value
  (`outK_eq_outR`); the two memories agree on the arguments, so the two result arrays are equal element by element.
  The facts about the chain, the two element-wise readings and the degrees are taken here as hypotheses.
-/
import proofs.«162427_j48808008351905_2_alg».proof.Defs
import proofs.«162427_j48808008351905_2_alg».proof.Proof.Gen.Kernel.Frame
import proofs.«162427_j48808008351905_2_alg».proof.Proof.Gen.KernelIdeal.Frame
import proofs.«162427_j48808008351905_2_alg».proof.Proof.Gen.ReferenceIdeal
import proofs.«162427_j48808008351905_2_alg».proof.Proof.Gen.Pre_finite_inputs
import proofs.«162427_j48808008351905_2_alg».proof.Proof.Gen.ReferenceIdeal.Run
import proofs.«162427_j48808008351905_2_alg».proof.Proof.KSpec
import proofs.«162427_j48808008351905_2_alg».proof.Proof.Formula
import proofs.«162427_j48808008351905_2_alg».proof.Proof.KRun
import proofs.«162427_j48808008351905_2_alg».proof.Proof.Law
import proofs.«162427_j48808008351905_2_alg».proof.Proof.Finite
import proofs.«162427_j48808008351905_2_alg».proof.Proof.IdxFacts

noncomputable section

namespace Cert.Gcn.Assemble

open Idealize.ShloMosaic Idealize.ShloMosaic.TcCoe Idealize.SL.Sem Idealize.ShloMosaic.ValueIdx
open Cert.SumExchange Cert.Gcn Cert.KernelIdeal

/-- The kernel program as printed runs and keeps its arguments. -/
theorem frame_Kernel : Cert.frame_Kernel := fun m ρ _ => Cert.Kernel.Gen.frame m ρ

/-- The kernel program at the ideal values runs and keeps its arguments. -/
theorem frame_KernelIdeal : Cert.frame_KernelIdeal := fun m ρ _ => Cert.KernelIdeal.Gen.frame m ρ

/-- The reference at the ideal values runs and keeps its arguments. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- An array that reads element by element as the reference's arrangement of arguments satisfying the precondition is
    the kernel's value of those arguments: the entries are real, so the two arrangements agree. -/
theorem eq_KTerm_of_outR
    (hK : ∀ (x : FV S100000x512) (W1 : FV S512x16) (b1 : FV S16) (W2 : FV S16x16) (b2 : FV S16) (eps : FV S100000x16)
      (ei : IV S2x3200000) (n : Fin 100000) (k : Fin 16),
      KTerm x W1 b1 W2 b2 eps ei (ix2 n k) = outK ei x W1 b1 W2 b2 eps n k)
    (hdis : ∀ (ei : IV S2x3200000) (a : Fin 100000), IsReal (disE ei a))
    (x : FV S100000x512) (W1 : FV S512x16) (b1 : FV S16) (W2 : FV S16x16) (b2 : FV S16) (eps : FV S100000x16)
    (ei : IV S2x3200000)
    (hpre : Cert.Pre_finite_inputs.fn (F := Ideal) x W1 b1 W2 b2 eps ei = fun _ => 1#1)
    (R : FV S100000x16) (hRv : ∀ (n : Fin 100000) (k : Fin 16), R (ix2 n k) = outR ei x W1 b1 W2 b2 eps n k) :
    R = KTerm x W1 b1 W2 b2 eps ei := by
  funext i
  obtain ⟨n, k, rfl⟩ : ∃ (n : Fin 100000) (k : Fin 16), i = ix2 n k := ⟨i 0, i 1, eq_ix2 i⟩
  obtain ⟨hx, hW1, hb1, hW2, hb2, heps⟩ := reals_of_pre x W1 b1 W2 b2 eps ei hpre
  rw [hRv, hK]
  exact (outK_eq_outR ei x W1 b1 W2 b2 eps n k (hdis ei) hx hW1 hb1 hW2 (row_of_hit ei)).symm

/-- THE TWO PROGRAMS AT THE IDEAL VALUES, from memories agreeing on the arguments, both run and end with equal result
    arrays and unchanged arguments. -/
theorem algebraic
    (hchain : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Cert.KernelIdeal.Gen.W9 m ρ c (Proc.devRef .tc Cert.KernelIdeal.main_v56)
        = KTerm (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)))
    (hK : ∀ (x : FV S100000x512) (W1 : FV S512x16) (b1 : FV S16) (W2 : FV S16x16) (b2 : FV S16) (eps : FV S100000x16)
      (ei : IV S2x3200000) (n : Fin 100000) (k : Fin 16),
      KTerm x W1 b1 W2 b2 eps ei (ix2 n k) = outK ei x W1 b1 W2 b2 eps n k)
    (hR : ∀ (m' : (ℓ : Loc Cert.ReferenceIdeal.nD Cert.ReferenceIdeal.τ Cert.ReferenceIdeal.sig) → Buf (Elt Ideal) ℓ)
      (c : Dev Cert.ReferenceIdeal.nD) (n : Fin 100000) (k : Fin 16),
      Cert.ReferenceIdeal.Value.res_main_v81 (F := Ideal) m' c (ix2 n k)
        = outR (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5)) n k)
    (hdis : ∀ (ei : IV S2x3200000) (a : Fin 100000), IsReal (disE ei a)) :
    Cert.algebraic_KernelIdeal_ReferenceIdeal := by
  intro m ρ m' ρ' hpre hagree
  refine ⟨fun c => KTerm (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)), ?_, ?_⟩
  · exact (θ_run Cert.KernelIdeal.defs _ _).mono (fun r h c => ⟨(h c).1.trans (hchain m ρ c), (h c).2⟩)
      (Cert.Gcn.KRun.run_named m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    have hr := hR m' c
    rw [e0, e1, e2, e3, e4, e5, e6] at hr
    exact eq_KTerm_of_outR hK hdis _ _ _ _ _ _ _ (hpre c) _ hr

end Cert.Gcn.Assemble

end
-- ==== Proof.Chain.lean ====
/-
  The kernel program from launch to return, buffer by buffer.

  The program is five stretches of host operations with four kernel regions between them. Each stretch is read as a
  function of the buffers it finds (what one buffer holds after a list of operations is the composition of the
  operations that feed it); each region replaces its output array by the region's value of its input arrays (taken
  here as hypotheses) and keeps every other buffer. Walking the nine boundaries in order, the result buffer at the return
  is the composed function `KTerm` of the seven argument arrays.
-/
import proofs.«162427_j48808008351905_2_alg».proof.Proof.KSpec
import proofs.«162427_j48808008351905_2_alg».proof.Proof.Gen.KernelIdeal.Frame
import Idealize.ShloMosaic.Lib.StableHlo.Run

noncomputable section

namespace Cert.Gcn.Chain

open Idealize.ShloMosaic Idealize.ShloMosaic.TcCoe Idealize.SL.Sem Idealize.ShloMosaic.StableHlo
open Cert.KernelIdeal Cert.KernelIdeal.Gen

/-! ## Each stretch of host operations, from any contents `U` -/

section Stretches

variable (U : Valuation τ sig (Elt Ideal))

/-- The first stretch leaves the extended source list, -/
theorem ops0_v3 : StableHlo.after (hostOps0 (F := Ideal)) U (Proc.devRef .tc main_v3) = srcW (U (Proc.devRef .tc main_arg6)) := by
  after_results
  rfl

/-- the extended destination list, -/
theorem ops0_v6 : StableHlo.after (hostOps0 (F := Ideal)) U (Proc.devRef .tc main_v6) = dstW (U (Proc.devRef .tc main_arg6)) := by
  after_results
  rfl

/-- the inverse square roots of the degrees, -/
theorem ops0_v11 : StableHlo.after (hostOps0 (F := Ideal)) U (Proc.devRef .tc main_v11) = disT (dstW (U (Proc.devRef .tc main_arg6))) := by
  after_results
  rfl

/-- and the same as a column. -/
theorem ops0_v12 : StableHlo.after (hostOps0 (F := Ideal)) U (Proc.devRef .tc main_v12) = disCol (disT (dstW (U (Proc.devRef .tc main_arg6)))) := by
  after_results
  rfl

theorem ops0_arg0 : StableHlo.after (hostOps0 (F := Ideal)) U (Proc.devRef .tc main_arg0) = (U (Proc.devRef .tc main_arg0)) := by
  after_results

theorem ops0_arg1 : StableHlo.after (hostOps0 (F := Ideal)) U (Proc.devRef .tc main_arg1) = (U (Proc.devRef .tc main_arg1)) := by
  after_results

theorem ops0_arg2 : StableHlo.after (hostOps0 (F := Ideal)) U (Proc.devRef .tc main_arg2) = (U (Proc.devRef .tc main_arg2)) := by
  after_results

theorem ops0_arg3 : StableHlo.after (hostOps0 (F := Ideal)) U (Proc.devRef .tc main_arg3) = (U (Proc.devRef .tc main_arg3)) := by
  after_results

theorem ops0_arg4 : StableHlo.after (hostOps0 (F := Ideal)) U (Proc.devRef .tc main_arg4) = (U (Proc.devRef .tc main_arg4)) := by
  after_results

theorem ops0_arg5 : StableHlo.after (hostOps0 (F := Ideal)) U (Proc.devRef .tc main_arg5) = (U (Proc.devRef .tc main_arg5)) := by
  after_results

/-- The second stretch leaves the packed edge sum of the table it finds, -/
theorem ops1_v24 : StableHlo.after (hostOps1 (F := Ideal)) U (Proc.devRef .tc main_v24) = packT (aggT (U (Proc.devRef .tc main_v3)) (U (Proc.devRef .tc main_v6)) (U (Proc.devRef .tc main_v13))) := by
  after_results
  rfl

/-- the scaling in the packed layout, -/
theorem ops1_v27 : StableHlo.after (hostOps1 (F := Ideal)) U (Proc.devRef .tc main_v27) = disDenseT (U (Proc.devRef .tc main_v11)) := by
  after_results
  rfl

/-- and the first bias tiled. -/
theorem ops1_v31 : StableHlo.after (hostOps1 (F := Ideal)) U (Proc.devRef .tc main_v31) = biasDenseT (U (Proc.devRef .tc main_arg2)) := by
  after_results
  rfl

theorem ops1_v3 : StableHlo.after (hostOps1 (F := Ideal)) U (Proc.devRef .tc main_v3) = (U (Proc.devRef .tc main_v3)) := by
  after_results

theorem ops1_v6 : StableHlo.after (hostOps1 (F := Ideal)) U (Proc.devRef .tc main_v6) = (U (Proc.devRef .tc main_v6)) := by
  after_results

theorem ops1_v11 : StableHlo.after (hostOps1 (F := Ideal)) U (Proc.devRef .tc main_v11) = (U (Proc.devRef .tc main_v11)) := by
  after_results

theorem ops1_arg3 : StableHlo.after (hostOps1 (F := Ideal)) U (Proc.devRef .tc main_arg3) = (U (Proc.devRef .tc main_arg3)) := by
  after_results

theorem ops1_arg4 : StableHlo.after (hostOps1 (F := Ideal)) U (Proc.devRef .tc main_arg4) = (U (Proc.devRef .tc main_arg4)) := by
  after_results

theorem ops1_arg5 : StableHlo.after (hostOps1 (F := Ideal)) U (Proc.devRef .tc main_arg5) = (U (Proc.devRef .tc main_arg5)) := by
  after_results

/-- The third stretch unpacks the hidden table -/
theorem ops2_v33 : StableHlo.after (hostOps2 (F := Ideal)) U (Proc.devRef .tc main_v33) = unpackT (U (Proc.devRef .tc main_v32)) := by
  after_results
  rfl

/-- and forms the scaling column again. -/
theorem ops2_v34 : StableHlo.after (hostOps2 (F := Ideal)) U (Proc.devRef .tc main_v34) = disCol (U (Proc.devRef .tc main_v11)) := by
  after_results
  rfl

theorem ops2_v3 : StableHlo.after (hostOps2 (F := Ideal)) U (Proc.devRef .tc main_v3) = (U (Proc.devRef .tc main_v3)) := by
  after_results

theorem ops2_v6 : StableHlo.after (hostOps2 (F := Ideal)) U (Proc.devRef .tc main_v6) = (U (Proc.devRef .tc main_v6)) := by
  after_results

theorem ops2_v11 : StableHlo.after (hostOps2 (F := Ideal)) U (Proc.devRef .tc main_v11) = (U (Proc.devRef .tc main_v11)) := by
  after_results

theorem ops2_arg3 : StableHlo.after (hostOps2 (F := Ideal)) U (Proc.devRef .tc main_arg3) = (U (Proc.devRef .tc main_arg3)) := by
  after_results

theorem ops2_arg4 : StableHlo.after (hostOps2 (F := Ideal)) U (Proc.devRef .tc main_arg4) = (U (Proc.devRef .tc main_arg4)) := by
  after_results

theorem ops2_arg5 : StableHlo.after (hostOps2 (F := Ideal)) U (Proc.devRef .tc main_arg5) = (U (Proc.devRef .tc main_arg5)) := by
  after_results

/-- The fourth stretch leaves the packed edge sum of the second table, -/
theorem ops3_v46 : StableHlo.after (hostOps3 (F := Ideal)) U (Proc.devRef .tc main_v46) = packT (aggT (U (Proc.devRef .tc main_v3)) (U (Proc.devRef .tc main_v6)) (U (Proc.devRef .tc main_v35))) := by
  after_results_simp
  rfl

/-- the scaling in the packed layout, -/
theorem ops3_v49 : StableHlo.after (hostOps3 (F := Ideal)) U (Proc.devRef .tc main_v49) = disDenseT (U (Proc.devRef .tc main_v11)) := by
  after_results
  rfl

/-- the second bias tiled, -/
theorem ops3_v53 : StableHlo.after (hostOps3 (F := Ideal)) U (Proc.devRef .tc main_v53) = biasDenseT (U (Proc.devRef .tc main_arg4)) := by
  after_results
  rfl

/-- and the noise packed. -/
theorem ops3_v54 : StableHlo.after (hostOps3 (F := Ideal)) U (Proc.devRef .tc main_v54) = packT (U (Proc.devRef .tc main_arg5)) := by
  after_results
  rfl

/-- The last stretch unpacks the result. -/
theorem ops4_v56 : StableHlo.after (hostOps4 (F := Ideal)) U (Proc.devRef .tc main_v56) = unpackT (U (Proc.devRef .tc main_v55)) := by
  after_results
  rfl

end Stretches

/-! ## The nine boundaries -/

section Boundaries

variable (m : (ℓ : Loc nD τ sig) → Buf (Elt Ideal) ℓ) (ρ : Dev nD → PrngReg) (c : Dev nD)

/-- AFTER THE FIRST STRETCH (region 0's entry). -/
theorem W1_v3 :
    W1 (F := Ideal) m ρ c (Proc.devRef .tc main_v3) = (srcW (m ((c : Thread nD τ).loc main_arg6))) :=
  ops0_v3 (W0 (F := Ideal) m ρ c)

theorem W1_v6 :
    W1 (F := Ideal) m ρ c (Proc.devRef .tc main_v6) = (dstW (m ((c : Thread nD τ).loc main_arg6))) :=
  ops0_v6 (W0 (F := Ideal) m ρ c)

theorem W1_v11 :
    W1 (F := Ideal) m ρ c (Proc.devRef .tc main_v11) = (disT (dstW (m ((c : Thread nD τ).loc main_arg6)))) :=
  ops0_v11 (W0 (F := Ideal) m ρ c)

theorem W1_v12 :
    W1 (F := Ideal) m ρ c (Proc.devRef .tc main_v12) = (disCol (disT (dstW (m ((c : Thread nD τ).loc main_arg6))))) :=
  ops0_v12 (W0 (F := Ideal) m ρ c)

theorem W1_arg0 :
    W1 (F := Ideal) m ρ c (Proc.devRef .tc main_arg0) = (m ((c : Thread nD τ).loc main_arg0)) :=
  ops0_arg0 (W0 (F := Ideal) m ρ c)

theorem W1_arg1 :
    W1 (F := Ideal) m ρ c (Proc.devRef .tc main_arg1) = (m ((c : Thread nD τ).loc main_arg1)) :=
  ops0_arg1 (W0 (F := Ideal) m ρ c)

theorem W1_arg2 :
    W1 (F := Ideal) m ρ c (Proc.devRef .tc main_arg2) = (m ((c : Thread nD τ).loc main_arg2)) :=
  ops0_arg2 (W0 (F := Ideal) m ρ c)

theorem W1_arg3 :
    W1 (F := Ideal) m ρ c (Proc.devRef .tc main_arg3) = (m ((c : Thread nD τ).loc main_arg3)) :=
  ops0_arg3 (W0 (F := Ideal) m ρ c)

theorem W1_arg4 :
    W1 (F := Ideal) m ρ c (Proc.devRef .tc main_arg4) = (m ((c : Thread nD τ).loc main_arg4)) :=
  ops0_arg4 (W0 (F := Ideal) m ρ c)

theorem W1_arg5 :
    W1 (F := Ideal) m ρ c (Proc.devRef .tc main_arg5) = (m ((c : Thread nD τ).loc main_arg5)) :=
  ops0_arg5 (W0 (F := Ideal) m ρ c)

/-- AFTER REGION 0: the first table, scaled. -/
theorem W2_v13
    (h0 : ∀ V c, (dat0 (F := Ideal) V c).arrAt 3 cfg0.N = linS (V c main_arg0) (V c main_arg1) (V c main_v12)) :
    W2 (F := Ideal) m ρ c (Proc.devRef .tc main_v13) = (linS (m ((c : Thread nD τ).loc main_arg0)) (m ((c : Thread nD τ).loc main_arg1)) (disCol (disT (dstW (m ((c : Thread nD τ).loc main_arg6)))))) :=
  by
  have e : W2 (F := Ideal) m ρ c (Proc.devRef .tc main_v13)
      = linS (W1 (F := Ideal) m ρ c (Proc.devRef .tc main_arg0)) (W1 (F := Ideal) m ρ c (Proc.devRef .tc main_arg1)) (W1 (F := Ideal) m ρ c (Proc.devRef .tc main_v12)) :=
    (W2_arr m ρ c 3).trans (h0 (V1 m ρ) c)
  rw [e, W1_arg0 m ρ c, W1_arg1 m ρ c, W1_v12 m ρ c]

theorem W2_v3 :
    W2 (F := Ideal) m ρ c (Proc.devRef .tc main_v3) = (srcW (m ((c : Thread nD τ).loc main_arg6))) :=
  (W2_of_ne m ρ c main_v3 (by decide)).trans (W1_v3 m ρ c)

theorem W2_v6 :
    W2 (F := Ideal) m ρ c (Proc.devRef .tc main_v6) = (dstW (m ((c : Thread nD τ).loc main_arg6))) :=
  (W2_of_ne m ρ c main_v6 (by decide)).trans (W1_v6 m ρ c)

theorem W2_v11 :
    W2 (F := Ideal) m ρ c (Proc.devRef .tc main_v11) = (disT (dstW (m ((c : Thread nD τ).loc main_arg6)))) :=
  (W2_of_ne m ρ c main_v11 (by decide)).trans (W1_v11 m ρ c)

theorem W2_arg2 :
    W2 (F := Ideal) m ρ c (Proc.devRef .tc main_arg2) = (m ((c : Thread nD τ).loc main_arg2)) :=
  (W2_of_ne m ρ c main_arg2 (by decide)).trans (W1_arg2 m ρ c)

theorem W2_arg3 :
    W2 (F := Ideal) m ρ c (Proc.devRef .tc main_arg3) = (m ((c : Thread nD τ).loc main_arg3)) :=
  (W2_of_ne m ρ c main_arg3 (by decide)).trans (W1_arg3 m ρ c)

theorem W2_arg4 :
    W2 (F := Ideal) m ρ c (Proc.devRef .tc main_arg4) = (m ((c : Thread nD τ).loc main_arg4)) :=
  (W2_of_ne m ρ c main_arg4 (by decide)).trans (W1_arg4 m ρ c)

theorem W2_arg5 :
    W2 (F := Ideal) m ρ c (Proc.devRef .tc main_arg5) = (m ((c : Thread nD τ).loc main_arg5)) :=
  (W2_of_ne m ρ c main_arg5 (by decide)).trans (W1_arg5 m ρ c)

/-- AFTER THE SECOND STRETCH (region 1's entry). -/
theorem W3_v24
    (h0 : ∀ V c, (dat0 (F := Ideal) V c).arrAt 3 cfg0.N = linS (V c main_arg0) (V c main_arg1) (V c main_v12)) :
    W3 (F := Ideal) m ρ c (Proc.devRef .tc main_v24) = (packT (aggT (srcW (m ((c : Thread nD τ).loc main_arg6))) (dstW (m ((c : Thread nD τ).loc main_arg6))) (linS (m ((c : Thread nD τ).loc main_arg0)) (m ((c : Thread nD τ).loc main_arg1)) (disCol (disT (dstW (m ((c : Thread nD τ).loc main_arg6)))))))) :=
  (ops1_v24 (W2 (F := Ideal) m ρ c)).trans (by rw [W2_v3 m ρ c, W2_v6 m ρ c, W2_v13 m ρ c h0])

theorem W3_v27 :
    W3 (F := Ideal) m ρ c (Proc.devRef .tc main_v27) = (disDenseT (disT (dstW (m ((c : Thread nD τ).loc main_arg6))))) :=
  (ops1_v27 (W2 (F := Ideal) m ρ c)).trans (by rw [W2_v11 m ρ c])

theorem W3_v31 :
    W3 (F := Ideal) m ρ c (Proc.devRef .tc main_v31) = (biasDenseT (m ((c : Thread nD τ).loc main_arg2))) :=
  (ops1_v31 (W2 (F := Ideal) m ρ c)).trans (by rw [W2_arg2 m ρ c])

theorem W3_v3 :
    W3 (F := Ideal) m ρ c (Proc.devRef .tc main_v3) = (srcW (m ((c : Thread nD τ).loc main_arg6))) :=
  (ops1_v3 (W2 (F := Ideal) m ρ c)).trans (by rw [W2_v3 m ρ c])

theorem W3_v6 :
    W3 (F := Ideal) m ρ c (Proc.devRef .tc main_v6) = (dstW (m ((c : Thread nD τ).loc main_arg6))) :=
  (ops1_v6 (W2 (F := Ideal) m ρ c)).trans (by rw [W2_v6 m ρ c])

theorem W3_v11 :
    W3 (F := Ideal) m ρ c (Proc.devRef .tc main_v11) = (disT (dstW (m ((c : Thread nD τ).loc main_arg6)))) :=
  (ops1_v11 (W2 (F := Ideal) m ρ c)).trans (by rw [W2_v11 m ρ c])

theorem W3_arg3 :
    W3 (F := Ideal) m ρ c (Proc.devRef .tc main_arg3) = (m ((c : Thread nD τ).loc main_arg3)) :=
  (ops1_arg3 (W2 (F := Ideal) m ρ c)).trans (by rw [W2_arg3 m ρ c])

theorem W3_arg4 :
    W3 (F := Ideal) m ρ c (Proc.devRef .tc main_arg4) = (m ((c : Thread nD τ).loc main_arg4)) :=
  (ops1_arg4 (W2 (F := Ideal) m ρ c)).trans (by rw [W2_arg4 m ρ c])

theorem W3_arg5 :
    W3 (F := Ideal) m ρ c (Proc.devRef .tc main_arg5) = (m ((c : Thread nD τ).loc main_arg5)) :=
  (ops1_arg5 (W2 (F := Ideal) m ρ c)).trans (by rw [W2_arg5 m ρ c])

/-- AFTER REGION 1: the hidden table, packed. -/
theorem W4_v32
    (h0 : ∀ V c, (dat0 (F := Ideal) V c).arrAt 3 cfg0.N = linS (V c main_arg0) (V c main_arg1) (V c main_v12))
    (h1 : ∀ V c, (dat1 (F := Ideal) V c).arrAt 3 cfg1.N = k1_pay1 (F := Ideal) (V c main_v24) (V c main_v27) (V c main_v31)) :
    W4 (F := Ideal) m ρ c (Proc.devRef .tc main_v32) = (k1_pay1 (F := Ideal) (packT (aggT (srcW (m ((c : Thread nD τ).loc main_arg6))) (dstW (m ((c : Thread nD τ).loc main_arg6))) (linS (m ((c : Thread nD τ).loc main_arg0)) (m ((c : Thread nD τ).loc main_arg1)) (disCol (disT (dstW (m ((c : Thread nD τ).loc main_arg6)))))))) (disDenseT (disT (dstW (m ((c : Thread nD τ).loc main_arg6))))) (biasDenseT (m ((c : Thread nD τ).loc main_arg2)))) :=
  by
  have e : W4 (F := Ideal) m ρ c (Proc.devRef .tc main_v32)
      = k1_pay1 (F := Ideal) (W3 (F := Ideal) m ρ c (Proc.devRef .tc main_v24)) (W3 (F := Ideal) m ρ c (Proc.devRef .tc main_v27)) (W3 (F := Ideal) m ρ c (Proc.devRef .tc main_v31)) :=
    (W4_arr m ρ c 3).trans (h1 (V3 m ρ) c)
  rw [e, W3_v24 m ρ c h0, W3_v27 m ρ c, W3_v31 m ρ c]

theorem W4_v3 :
    W4 (F := Ideal) m ρ c (Proc.devRef .tc main_v3) = (srcW (m ((c : Thread nD τ).loc main_arg6))) :=
  (W4_of_ne m ρ c main_v3 (by decide)).trans (W3_v3 m ρ c)

theorem W4_v6 :
    W4 (F := Ideal) m ρ c (Proc.devRef .tc main_v6) = (dstW (m ((c : Thread nD τ).loc main_arg6))) :=
  (W4_of_ne m ρ c main_v6 (by decide)).trans (W3_v6 m ρ c)

theorem W4_v11 :
    W4 (F := Ideal) m ρ c (Proc.devRef .tc main_v11) = (disT (dstW (m ((c : Thread nD τ).loc main_arg6)))) :=
  (W4_of_ne m ρ c main_v11 (by decide)).trans (W3_v11 m ρ c)

theorem W4_arg3 :
    W4 (F := Ideal) m ρ c (Proc.devRef .tc main_arg3) = (m ((c : Thread nD τ).loc main_arg3)) :=
  (W4_of_ne m ρ c main_arg3 (by decide)).trans (W3_arg3 m ρ c)

theorem W4_arg4 :
    W4 (F := Ideal) m ρ c (Proc.devRef .tc main_arg4) = (m ((c : Thread nD τ).loc main_arg4)) :=
  (W4_of_ne m ρ c main_arg4 (by decide)).trans (W3_arg4 m ρ c)

theorem W4_arg5 :
    W4 (F := Ideal) m ρ c (Proc.devRef .tc main_arg5) = (m ((c : Thread nD τ).loc main_arg5)) :=
  (W4_of_ne m ρ c main_arg5 (by decide)).trans (W3_arg5 m ρ c)

/-- AFTER THE THIRD STRETCH (region 2's entry). -/
theorem W5_v33
    (h0 : ∀ V c, (dat0 (F := Ideal) V c).arrAt 3 cfg0.N = linS (V c main_arg0) (V c main_arg1) (V c main_v12))
    (h1 : ∀ V c, (dat1 (F := Ideal) V c).arrAt 3 cfg1.N = k1_pay1 (F := Ideal) (V c main_v24) (V c main_v27) (V c main_v31)) :
    W5 (F := Ideal) m ρ c (Proc.devRef .tc main_v33) = (unpackT (k1_pay1 (F := Ideal) (packT (aggT (srcW (m ((c : Thread nD τ).loc main_arg6))) (dstW (m ((c : Thread nD τ).loc main_arg6))) (linS (m ((c : Thread nD τ).loc main_arg0)) (m ((c : Thread nD τ).loc main_arg1)) (disCol (disT (dstW (m ((c : Thread nD τ).loc main_arg6)))))))) (disDenseT (disT (dstW (m ((c : Thread nD τ).loc main_arg6))))) (biasDenseT (m ((c : Thread nD τ).loc main_arg2))))) :=
  (ops2_v33 (W4 (F := Ideal) m ρ c)).trans (by rw [W4_v32 m ρ c h0 h1])

theorem W5_v34 :
    W5 (F := Ideal) m ρ c (Proc.devRef .tc main_v34) = (disCol (disT (dstW (m ((c : Thread nD τ).loc main_arg6))))) :=
  (ops2_v34 (W4 (F := Ideal) m ρ c)).trans (by rw [W4_v11 m ρ c])

theorem W5_v3 :
    W5 (F := Ideal) m ρ c (Proc.devRef .tc main_v3) = (srcW (m ((c : Thread nD τ).loc main_arg6))) :=
  (ops2_v3 (W4 (F := Ideal) m ρ c)).trans (by rw [W4_v3 m ρ c])

theorem W5_v6 :
    W5 (F := Ideal) m ρ c (Proc.devRef .tc main_v6) = (dstW (m ((c : Thread nD τ).loc main_arg6))) :=
  (ops2_v6 (W4 (F := Ideal) m ρ c)).trans (by rw [W4_v6 m ρ c])

theorem W5_v11 :
    W5 (F := Ideal) m ρ c (Proc.devRef .tc main_v11) = (disT (dstW (m ((c : Thread nD τ).loc main_arg6)))) :=
  (ops2_v11 (W4 (F := Ideal) m ρ c)).trans (by rw [W4_v11 m ρ c])

theorem W5_arg3 :
    W5 (F := Ideal) m ρ c (Proc.devRef .tc main_arg3) = (m ((c : Thread nD τ).loc main_arg3)) :=
  (ops2_arg3 (W4 (F := Ideal) m ρ c)).trans (by rw [W4_arg3 m ρ c])

theorem W5_arg4 :
    W5 (F := Ideal) m ρ c (Proc.devRef .tc main_arg4) = (m ((c : Thread nD τ).loc main_arg4)) :=
  (ops2_arg4 (W4 (F := Ideal) m ρ c)).trans (by rw [W4_arg4 m ρ c])

theorem W5_arg5 :
    W5 (F := Ideal) m ρ c (Proc.devRef .tc main_arg5) = (m ((c : Thread nD τ).loc main_arg5)) :=
  (ops2_arg5 (W4 (F := Ideal) m ρ c)).trans (by rw [W4_arg5 m ρ c])

/-- AFTER REGION 2: the second table, scaled. -/
theorem W6_v35
    (h0 : ∀ V c, (dat0 (F := Ideal) V c).arrAt 3 cfg0.N = linS (V c main_arg0) (V c main_arg1) (V c main_v12))
    (h1 : ∀ V c, (dat1 (F := Ideal) V c).arrAt 3 cfg1.N = k1_pay1 (F := Ideal) (V c main_v24) (V c main_v27) (V c main_v31))
    (h2 : ∀ V c, (dat2 (F := Ideal) V c).arrAt 3 cfg2.N = linS (V c main_v33) (V c main_arg3) (V c main_v34)) :
    W6 (F := Ideal) m ρ c (Proc.devRef .tc main_v35) = (linS (unpackT (k1_pay1 (F := Ideal) (packT (aggT (srcW (m ((c : Thread nD τ).loc main_arg6))) (dstW (m ((c : Thread nD τ).loc main_arg6))) (linS (m ((c : Thread nD τ).loc main_arg0)) (m ((c : Thread nD τ).loc main_arg1)) (disCol (disT (dstW (m ((c : Thread nD τ).loc main_arg6)))))))) (disDenseT (disT (dstW (m ((c : Thread nD τ).loc main_arg6))))) (biasDenseT (m ((c : Thread nD τ).loc main_arg2))))) (m ((c : Thread nD τ).loc main_arg3)) (disCol (disT (dstW (m ((c : Thread nD τ).loc main_arg6)))))) :=
  by
  have e : W6 (F := Ideal) m ρ c (Proc.devRef .tc main_v35)
      = linS (W5 (F := Ideal) m ρ c (Proc.devRef .tc main_v33)) (W5 (F := Ideal) m ρ c (Proc.devRef .tc main_arg3)) (W5 (F := Ideal) m ρ c (Proc.devRef .tc main_v34)) :=
    (W6_arr m ρ c 3).trans (h2 (V5 m ρ) c)
  rw [e, W5_v33 m ρ c h0 h1, W5_arg3 m ρ c, W5_v34 m ρ c]

theorem W6_v3 :
    W6 (F := Ideal) m ρ c (Proc.devRef .tc main_v3) = (srcW (m ((c : Thread nD τ).loc main_arg6))) :=
  (W6_of_ne m ρ c main_v3 (by decide)).trans (W5_v3 m ρ c)

theorem W6_v6 :
    W6 (F := Ideal) m ρ c (Proc.devRef .tc main_v6) = (dstW (m ((c : Thread nD τ).loc main_arg6))) :=
  (W6_of_ne m ρ c main_v6 (by decide)).trans (W5_v6 m ρ c)

theorem W6_v11 :
    W6 (F := Ideal) m ρ c (Proc.devRef .tc main_v11) = (disT (dstW (m ((c : Thread nD τ).loc main_arg6)))) :=
  (W6_of_ne m ρ c main_v11 (by decide)).trans (W5_v11 m ρ c)

theorem W6_arg4 :
    W6 (F := Ideal) m ρ c (Proc.devRef .tc main_arg4) = (m ((c : Thread nD τ).loc main_arg4)) :=
  (W6_of_ne m ρ c main_arg4 (by decide)).trans (W5_arg4 m ρ c)

theorem W6_arg5 :
    W6 (F := Ideal) m ρ c (Proc.devRef .tc main_arg5) = (m ((c : Thread nD τ).loc main_arg5)) :=
  (W6_of_ne m ρ c main_arg5 (by decide)).trans (W5_arg5 m ρ c)

/-- AFTER THE FOURTH STRETCH (region 3's entry). -/
theorem W7_v46
    (h0 : ∀ V c, (dat0 (F := Ideal) V c).arrAt 3 cfg0.N = linS (V c main_arg0) (V c main_arg1) (V c main_v12))
    (h1 : ∀ V c, (dat1 (F := Ideal) V c).arrAt 3 cfg1.N = k1_pay1 (F := Ideal) (V c main_v24) (V c main_v27) (V c main_v31))
    (h2 : ∀ V c, (dat2 (F := Ideal) V c).arrAt 3 cfg2.N = linS (V c main_v33) (V c main_arg3) (V c main_v34)) :
    W7 (F := Ideal) m ρ c (Proc.devRef .tc main_v46) = (packT (aggT (srcW (m ((c : Thread nD τ).loc main_arg6))) (dstW (m ((c : Thread nD τ).loc main_arg6))) (linS (unpackT (k1_pay1 (F := Ideal) (packT (aggT (srcW (m ((c : Thread nD τ).loc main_arg6))) (dstW (m ((c : Thread nD τ).loc main_arg6))) (linS (m ((c : Thread nD τ).loc main_arg0)) (m ((c : Thread nD τ).loc main_arg1)) (disCol (disT (dstW (m ((c : Thread nD τ).loc main_arg6)))))))) (disDenseT (disT (dstW (m ((c : Thread nD τ).loc main_arg6))))) (biasDenseT (m ((c : Thread nD τ).loc main_arg2))))) (m ((c : Thread nD τ).loc main_arg3)) (disCol (disT (dstW (m ((c : Thread nD τ).loc main_arg6)))))))) :=
  (ops3_v46 (W6 (F := Ideal) m ρ c)).trans (by rw [W6_v3 m ρ c, W6_v6 m ρ c, W6_v35 m ρ c h0 h1 h2])

theorem W7_v49 :
    W7 (F := Ideal) m ρ c (Proc.devRef .tc main_v49) = (disDenseT (disT (dstW (m ((c : Thread nD τ).loc main_arg6))))) :=
  (ops3_v49 (W6 (F := Ideal) m ρ c)).trans (by rw [W6_v11 m ρ c])

theorem W7_v53 :
    W7 (F := Ideal) m ρ c (Proc.devRef .tc main_v53) = (biasDenseT (m ((c : Thread nD τ).loc main_arg4))) :=
  (ops3_v53 (W6 (F := Ideal) m ρ c)).trans (by rw [W6_arg4 m ρ c])

theorem W7_v54 :
    W7 (F := Ideal) m ρ c (Proc.devRef .tc main_v54) = (packT (m ((c : Thread nD τ).loc main_arg5))) :=
  (ops3_v54 (W6 (F := Ideal) m ρ c)).trans (by rw [W6_arg5 m ρ c])

/-- AFTER REGION 3: the result, packed. -/
theorem W8_v55
    (h0 : ∀ V c, (dat0 (F := Ideal) V c).arrAt 3 cfg0.N = linS (V c main_arg0) (V c main_arg1) (V c main_v12))
    (h1 : ∀ V c, (dat1 (F := Ideal) V c).arrAt 3 cfg1.N = k1_pay1 (F := Ideal) (V c main_v24) (V c main_v27) (V c main_v31))
    (h2 : ∀ V c, (dat2 (F := Ideal) V c).arrAt 3 cfg2.N = linS (V c main_v33) (V c main_arg3) (V c main_v34))
    (h3 : ∀ V c, (dat3 (F := Ideal) V c).arrAt 4 cfg3.N = k3_pay1 (F := Ideal) (V c main_v46) (V c main_v49) (V c main_v53) (V c main_v54)) :
    W8 (F := Ideal) m ρ c (Proc.devRef .tc main_v55) = (k3_pay1 (F := Ideal) (packT (aggT (srcW (m ((c : Thread nD τ).loc main_arg6))) (dstW (m ((c : Thread nD τ).loc main_arg6))) (linS (unpackT (k1_pay1 (F := Ideal) (packT (aggT (srcW (m ((c : Thread nD τ).loc main_arg6))) (dstW (m ((c : Thread nD τ).loc main_arg6))) (linS (m ((c : Thread nD τ).loc main_arg0)) (m ((c : Thread nD τ).loc main_arg1)) (disCol (disT (dstW (m ((c : Thread nD τ).loc main_arg6)))))))) (disDenseT (disT (dstW (m ((c : Thread nD τ).loc main_arg6))))) (biasDenseT (m ((c : Thread nD τ).loc main_arg2))))) (m ((c : Thread nD τ).loc main_arg3)) (disCol (disT (dstW (m ((c : Thread nD τ).loc main_arg6)))))))) (disDenseT (disT (dstW (m ((c : Thread nD τ).loc main_arg6))))) (biasDenseT (m ((c : Thread nD τ).loc main_arg4))) (packT (m ((c : Thread nD τ).loc main_arg5)))) :=
  by
  have e : W8 (F := Ideal) m ρ c (Proc.devRef .tc main_v55)
      = k3_pay1 (F := Ideal) (W7 (F := Ideal) m ρ c (Proc.devRef .tc main_v46)) (W7 (F := Ideal) m ρ c (Proc.devRef .tc main_v49)) (W7 (F := Ideal) m ρ c (Proc.devRef .tc main_v53)) (W7 (F := Ideal) m ρ c (Proc.devRef .tc main_v54)) :=
    (W8_arr m ρ c 4).trans (h3 (V7 m ρ) c)
  rw [e, W7_v46 m ρ c h0 h1 h2, W7_v49 m ρ c, W7_v53 m ρ c, W7_v54 m ρ c]

/-- AFTER THE LAST STRETCH: the result. -/
theorem W9_v56
    (h0 : ∀ V c, (dat0 (F := Ideal) V c).arrAt 3 cfg0.N = linS (V c main_arg0) (V c main_arg1) (V c main_v12))
    (h1 : ∀ V c, (dat1 (F := Ideal) V c).arrAt 3 cfg1.N = k1_pay1 (F := Ideal) (V c main_v24) (V c main_v27) (V c main_v31))
    (h2 : ∀ V c, (dat2 (F := Ideal) V c).arrAt 3 cfg2.N = linS (V c main_v33) (V c main_arg3) (V c main_v34))
    (h3 : ∀ V c, (dat3 (F := Ideal) V c).arrAt 4 cfg3.N = k3_pay1 (F := Ideal) (V c main_v46) (V c main_v49) (V c main_v53) (V c main_v54)) :
    W9 (F := Ideal) m ρ c (Proc.devRef .tc main_v56) = (unpackT (k3_pay1 (F := Ideal) (packT (aggT (srcW (m ((c : Thread nD τ).loc main_arg6))) (dstW (m ((c : Thread nD τ).loc main_arg6))) (linS (unpackT (k1_pay1 (F := Ideal) (packT (aggT (srcW (m ((c : Thread nD τ).loc main_arg6))) (dstW (m ((c : Thread nD τ).loc main_arg6))) (linS (m ((c : Thread nD τ).loc main_arg0)) (m ((c : Thread nD τ).loc main_arg1)) (disCol (disT (dstW (m ((c : Thread nD τ).loc main_arg6)))))))) (disDenseT (disT (dstW (m ((c : Thread nD τ).loc main_arg6))))) (biasDenseT (m ((c : Thread nD τ).loc main_arg2))))) (m ((c : Thread nD τ).loc main_arg3)) (disCol (disT (dstW (m ((c : Thread nD τ).loc main_arg6)))))))) (disDenseT (disT (dstW (m ((c : Thread nD τ).loc main_arg6))))) (biasDenseT (m ((c : Thread nD τ).loc main_arg4))) (packT (m ((c : Thread nD τ).loc main_arg5))))) :=
  (ops4_v56 (W8 (F := Ideal) m ρ c)).trans (by rw [W8_v55 m ρ c h0 h1 h2 h3])

/-- THE KERNEL'S VALUE: at the return the result buffer holds `KTerm` of the seven arguments as launched. -/
theorem kernel_value
    (h0 : ∀ V c, (dat0 (F := Ideal) V c).arrAt 3 cfg0.N = linS (V c main_arg0) (V c main_arg1) (V c main_v12))
    (h1 : ∀ V c, (dat1 (F := Ideal) V c).arrAt 3 cfg1.N = k1_pay1 (F := Ideal) (V c main_v24) (V c main_v27) (V c main_v31))
    (h2 : ∀ V c, (dat2 (F := Ideal) V c).arrAt 3 cfg2.N = linS (V c main_v33) (V c main_arg3) (V c main_v34))
    (h3 : ∀ V c, (dat3 (F := Ideal) V c).arrAt 4 cfg3.N = k3_pay1 (F := Ideal) (V c main_v46) (V c main_v49) (V c main_v53) (V c main_v54)) :
    W9 (F := Ideal) m ρ c (Proc.devRef .tc main_v56)
      = KTerm (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) :=
  W9_v56 m ρ c h0 h1 h2 h3

end Boundaries

end Cert.Gcn.Chain

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.LibColumn.lean ====
/-
  A column broadcast along rows, read at an index.

  An `[a, 1]` array broadcast to `[a, b]` repeats each row's one entry across the row: at `(p, c)` it reads the
  operand at `(p, 0)`.
-/
import Idealize.ShloMosaic.Lib.Pipeline.Value
import Idealize.ShloMosaic.Lib.ValueIdx

noncomputable section

namespace Idealize.ShloMosaic.ColumnBroadcast

open Idealize.ShloMosaic Idealize.ShloMosaic.ValueIdx

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnBroadcast

end
-- ==== Proof.Lin0.lean ====
/-
  The first row-blocked linear kernel, read as one function of its three input arrays.

  The grid has 25 points; point t handles rows 4000 t … 4000 t + 3999 of the [100000, 512] table x and of the
  [100000, 1] column d, and the whole [512, 16] matrix w. On its block it forms the matrix product into a zero
  accumulator and multiplies row p by the column's entry d(p, 0):
    block(p, q) = (∑ c < 512, x(4000 t + p, c) · w(c, q)) · d(4000 t + p, 0).
  Every row r of the [100000, 16] output is written by exactly the point r / 4000, so after the region the output
  array is `linS x w d`, index by index.
-/
import proofs.«162427_j48808008351905_2_alg».proof.Proof.Gen.KernelIdeal.Frame
import proofs.«162427_j48808008351905_2_alg».proof.Proof.KSpec
import proofs.«162427_j48808008351905_2_alg».proof.Proof.LibPlainProduct
import proofs.«162427_j48808008351905_2_alg».proof.Proof.LibColumn
import Idealize.ShloMosaic.Lib.Pipeline.Value
import Idealize.ShloMosaic.Lib.ValueIdx

noncomputable section

open scoped BigOperators

namespace Cert.Gcn.Lin0

open Idealize.ShloMosaic Idealize.ShloMosaic.TcCoe Idealize.SL.Sem Idealize.ShloMosaic.ValueIdx
open Idealize.ShloMosaic.Pipeline (Dat)
open Cert.KernelIdeal Cert.KernelIdeal.Gen Cert.Gcn

/-- The zero offsets of a whole-block access, however spelt. -/
theorem hz : (![0, 0] : Fin 2 → Nat) = fun _ => 0 := funext fun a => by fin_cases a <;> rfl

/-- The block's payload at (p, q): the product's entry scaled by the column's entry of row p. -/
theorem pay_apply (x0 : Vec Ideal S4000x512 .f32) (x1 : Vec Ideal S512x16 .f32) (x2 : Vec Ideal S4000x1 .f32)
    (p : Fin 4000) (q : Fin 16) :
    k0_pay1 (F := Ideal) x0 x1 x2 (ix2 p q)
      = (∑ c : Fin 512, x0 (ix2 p c) * x1 (ix2 c q)) * x2 (ix2 p ⟨0, Nat.one_pos⟩) := by
  unfold k0_pay1
  rw [mulf_apply, shapeCast_self]
  refine congrArg₂ (· * ·) ?_ ?_
  · exact Cert.LibPlainProduct.matmul_zero_plain_apply dot_S4000x512_S512x16_S4000x16_1_0_0_1_n_n_wf none x0 x1 p q
  · exact ColumnBroadcast.broadcastTo_a1_ab_apply x2 broadcasts_S4000x1_S4000x16 p q

/-- The printed index maps over the grid: the row block of windows 0, 2, 3 is the point, window 1 is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- One point's payload against the whole-array function, given where its three blocks read the arrays:
    block row (j 0) is array row (i 0), block column (j 1) is array column (i 1). -/
theorem point_eq (X : S100000x512.Idx → EReal) (Wm : S512x16.Idx → EReal) (D : S100000x1.Idx → EReal)
    (x0 : Vec Ideal S4000x512 .f32) (x1 : Vec Ideal S512x16 .f32) (x2 : Vec Ideal S4000x1 .f32)
    (j : S4000x16.Idx) (i : S100000x16.Idx)
    (h0 : ∀ c : Fin 512, x0 (ix2 (j 0) c) = X (ix2 (i 0) c))
    (h1 : ∀ c : Fin 512, x1 (ix2 c (j 1)) = Wm (ix2 c (i 1)))
    (h2 : x2 (ix2 (j 0) ⟨0, Nat.one_pos⟩) = D (ix2 (i 0) ⟨0, Nat.one_pos⟩)) :
    k0_pay1 (F := Ideal) x0 x1 x2 j = linS X Wm D i := by
  refine (congrArg (k0_pay1 (F := Ideal) x0 x1 x2) (eq_ix2 j)).trans ((pay_apply x0 x1 x2 (j 0) (j 1)).trans ?_)
  exact congrArg₂ (· * ·) (Finset.sum_congr rfl fun c _ => congrArg₂ (· * ·) (h0 c) (h1 c)) h2

section Region

variable (V : (c : Dev nD) → (b : Ref sig .tc) → Buf (Elt Ideal) ((c : Thread nD τ).loc b))

/-- WHAT POINT `t` WRITES BACK is block `t` of `linS` of the three input arrays as the region finds them. -/
theorem flushed_eq (c : Dev nD) (t : Fin cfg0.N) :
    (dat0 (F := Ideal) V c).flushed 3 t
      = ((cfg0.win 3).blk t).view.read (Elt Ideal) (linS (V c main_arg0) (V c main_arg1) (V c main_v12)) := by
  show (cfg0.win 3).cut (grid0.coords t) ((dat0 (F := Ideal) V c).after 3 t) = _
  rw [after0_3]
  unfold out0_3
  rw [View.canon_unit_zero hz]
  simp only [View.ld_unit_zero (S := S4000x512) hz, View.ld_unit_zero (S := S512x16) hz,
    View.ld_unit_zero (S := S4000x1) hz]
  obtain ⟨e00, e01, e10, e11, e20, e21, e30, e31⟩ := idx_facts t
  funext j
  refine point_eq (V c main_arg0) (V c main_arg1) (V c main_v12) (iblk0 V c 0 t) (iblk0 V c 1 t) (iblk0 V c 2 t)
    j (((cfg0.win 3).blk t).view.emb j) (fun cc => ?_) (fun cc => ?_) ?_
  · show V c main_arg0 (((cfg0.win 0).blk t).view.emb (ix2 (j 0) cc))
      = V c main_arg0 (ix2 ((((cfg0.win 3).blk t).view.emb j) 0) cc)
    refine congrArg _ (funext fun a => Fin.ext ?_)
    match a with
    | ⟨0, _⟩ =>
      show win0_0.index t (0 : Fin 2) * 4000 + 1 * (j 0).val = win0_3.index t (0 : Fin 2) * 4000 + 1 * (j 0).val
      omega
    | ⟨1, _⟩ =>
      show win0_0.index t (1 : Fin 2) * 512 + 1 * cc.val = cc.val
      omega
  · show V c main_arg1 (((cfg0.win 1).blk t).view.emb (ix2 cc (j 1)))
      = V c main_arg1 (ix2 cc ((((cfg0.win 3).blk t).view.emb j) 1))
    refine congrArg _ (funext fun a => Fin.ext ?_)
    match a with
    | ⟨0, _⟩ =>
      show win0_1.index t (0 : Fin 2) * 512 + 1 * cc.val = cc.val
      omega
    | ⟨1, _⟩ =>
      show win0_1.index t (1 : Fin 2) * 16 + 1 * (j 1).val = win0_3.index t (1 : Fin 2) * 16 + 1 * (j 1).val
      omega
  · show V c main_v12 (((cfg0.win 2).blk t).view.emb (ix2 (j 0) ⟨0, Nat.one_pos⟩))
      = V c main_v12 (ix2 ((((cfg0.win 3).blk t).view.emb j) 0) ⟨0, Nat.one_pos⟩)
    refine congrArg _ (funext fun a => Fin.ext ?_)
    match a with
    | ⟨0, _⟩ =>
      show win0_2.index t (0 : Fin 2) * 4000 + 1 * (j 0).val = win0_3.index t (0 : Fin 2) * 4000 + 1 * (j 0).val
      omega
    | ⟨1, _⟩ =>
      show win0_2.index t (1 : Fin 2) * 1 + 1 * 0 = 0
      omega

/-- An index of the output array is in point `t`'s block iff each coordinate is in the block's range on its axis. -/
theorem mem_blk (t : Fin cfg0.N) (i : S100000x16.Idx) :
    i ∈ ((cfg0.win 3).blk t).view.set ↔ ∀ a : Fin 2, win0_3.index t a * S4000x16.size a ≤ (i a).val
      ∧ (i a).val < win0_3.index t a * S4000x16.size a + S4000x16.size a := by
  show i ∈ ((View.whole main_v13).slice (win0_3.rect t)).set ↔ _
  rw [View.set_slice_whole, Rect.mem_set_unit]
  exact Iff.rfl

/-- Every row r of the output is in the block of the point r / 4000. -/
theorem cover (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  obtain ⟨t, ht⟩ : ∃ t : Fin cfg0.N, t.val = (i 0).val / 4000 :=
    ⟨⟨(i 0).val / 4000, lt_of_lt_of_eq (by omega : (i 0).val / 4000 < 25) N_0.symm⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 16 ≤ (i 1).val ∧ (i 1).val < win0_3.index t (1 : Fin 2) * 16 + 16
    omega

/-- THE OUTPUT ARRAY after the region: the scaled product of the three input arrays, index by index. -/
theorem final0 (c : Dev nD) :
    (dat0 (F := Ideal) V c).arrAt 3 cfg0.N = linS (V c main_arg0) (V c main_arg1) (V c main_v12) :=
  (dat0 (F := Ideal) V c).arrAt_eq_of_cover 3 (linS (V c main_arg0) (V c main_arg1) (V c main_v12))
    (fun t _ => flushed_eq V c t) cover

end Region

end Cert.Gcn.Lin0

end
-- ==== Proof.Lin2.lean ====
/-
  The second row-blocked linear kernel, read as one function of its three input arrays.

  The grid has 10 points; point t handles rows 10000 t … 10000 t + 9999 of the [100000, 16] table x and of the
  [100000, 1] column d, and the whole [16, 16] matrix w. On its block it forms the matrix product into a zero
  accumulator and multiplies row p by the column's entry d(p, 0):
    block(p, q) = (∑ c < 16, x(10000 t + p, c) · w(c, q)) · d(10000 t + p, 0).
  Every row r of the [100000, 16] output is written by exactly the point r / 10000, so after the region the output
  array is `linS x w d`, index by index.
-/
import proofs.«162427_j48808008351905_2_alg».proof.Proof.Gen.KernelIdeal.Frame
import proofs.«162427_j48808008351905_2_alg».proof.Proof.KSpec
import proofs.«162427_j48808008351905_2_alg».proof.Proof.LibPlainProduct
import proofs.«162427_j48808008351905_2_alg».proof.Proof.LibColumn
import Idealize.ShloMosaic.Lib.Pipeline.Value
import Idealize.ShloMosaic.Lib.ValueIdx

noncomputable section

open scoped BigOperators

namespace Cert.Gcn.Lin2

open Idealize.ShloMosaic Idealize.ShloMosaic.TcCoe Idealize.SL.Sem Idealize.ShloMosaic.ValueIdx
open Idealize.ShloMosaic.Pipeline (Dat)
open Cert.KernelIdeal Cert.KernelIdeal.Gen Cert.Gcn

/-- The zero offsets of a whole-block access, however spelt. -/
theorem hz : (![0, 0] : Fin 2 → Nat) = fun _ => 0 := funext fun a => by fin_cases a <;> rfl

/-- The block's payload at (p, q): the product's entry scaled by the column's entry of row p. -/
theorem pay_apply (x0 : Vec Ideal S10000x16 .f32) (x1 : Vec Ideal S16x16 .f32) (x2 : Vec Ideal S10000x1 .f32)
    (p : Fin 10000) (q : Fin 16) :
    k2_pay1 (F := Ideal) x0 x1 x2 (ix2 p q)
      = (∑ c : Fin 16, x0 (ix2 p c) * x1 (ix2 c q)) * x2 (ix2 p ⟨0, Nat.one_pos⟩) := by
  unfold k2_pay1
  rw [mulf_apply, shapeCast_self x0, shapeCast_self x2]
  refine congrArg₂ (· * ·) ?_ ?_
  · exact Cert.LibPlainProduct.matmul_zero_plain_apply dot_S10000x16_S16x16_S10000x16_1_0_0_1_n_n_wf none x0 x1 p q
  · exact ColumnBroadcast.broadcastTo_a1_ab_apply x2 broadcasts_S10000x1_S10000x16 p q

/-- The printed index maps over the grid: the row block of windows 0, 2, 3 is the point, window 1 is one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- One point's payload against the whole-array function, given where its three blocks read the arrays:
    block row (j 0) is array row (i 0), block column (j 1) is array column (i 1). -/
theorem point_eq (X : S100000x16.Idx → EReal) (Wm : S16x16.Idx → EReal) (D : S100000x1.Idx → EReal)
    (x0 : Vec Ideal S10000x16 .f32) (x1 : Vec Ideal S16x16 .f32) (x2 : Vec Ideal S10000x1 .f32)
    (j : S10000x16.Idx) (i : S100000x16.Idx)
    (h0 : ∀ c : Fin 16, x0 (ix2 (j 0) c) = X (ix2 (i 0) c))
    (h1 : ∀ c : Fin 16, x1 (ix2 c (j 1)) = Wm (ix2 c (i 1)))
    (h2 : x2 (ix2 (j 0) ⟨0, Nat.one_pos⟩) = D (ix2 (i 0) ⟨0, Nat.one_pos⟩)) :
    k2_pay1 (F := Ideal) x0 x1 x2 j = linS X Wm D i := by
  refine (congrArg (k2_pay1 (F := Ideal) x0 x1 x2) (eq_ix2 j)).trans ((pay_apply x0 x1 x2 (j 0) (j 1)).trans ?_)
  exact congrArg₂ (· * ·) (Finset.sum_congr rfl fun c _ => congrArg₂ (· * ·) (h0 c) (h1 c)) h2

section Region

variable (V : (c : Dev nD) → (b : Ref sig .tc) → Buf (Elt Ideal) ((c : Thread nD τ).loc b))

/-- WHAT POINT `t` WRITES BACK is block `t` of `linS` of the three input arrays as the region finds them. -/
theorem flushed_eq (c : Dev nD) (t : Fin cfg2.N) :
    (dat2 (F := Ideal) V c).flushed 3 t
      = ((cfg2.win 3).blk t).view.read (Elt Ideal) (linS (V c main_v33) (V c main_arg3) (V c main_v34)) := by
  show (cfg2.win 3).cut (grid2.coords t) ((dat2 (F := Ideal) V c).after 3 t) = _
  rw [after2_3]
  unfold out2_3
  rw [View.canon_unit_zero hz]
  simp only [View.ld_unit_zero (S := S10000x16) hz, View.ld_unit_zero (S := S16x16) hz,
    View.ld_unit_zero (S := S10000x1) hz]
  obtain ⟨e00, e01, e10, e11, e20, e21, e30, e31⟩ := idx_facts t
  funext j
  refine point_eq (V c main_v33) (V c main_arg3) (V c main_v34) (iblk2 V c 0 t) (iblk2 V c 1 t) (iblk2 V c 2 t)
    j (((cfg2.win 3).blk t).view.emb j) (fun cc => ?_) (fun cc => ?_) ?_
  · show V c main_v33 (((cfg2.win 0).blk t).view.emb (ix2 (j 0) cc))
      = V c main_v33 (ix2 ((((cfg2.win 3).blk t).view.emb j) 0) cc)
    refine congrArg _ (funext fun a => Fin.ext ?_)
    match a with
    | ⟨0, _⟩ =>
      show win2_0.index t (0 : Fin 2) * 10000 + 1 * (j 0).val = win2_3.index t (0 : Fin 2) * 10000 + 1 * (j 0).val
      omega
    | ⟨1, _⟩ =>
      show win2_0.index t (1 : Fin 2) * 16 + 1 * cc.val = cc.val
      omega
  · show V c main_arg3 (((cfg2.win 1).blk t).view.emb (ix2 cc (j 1)))
      = V c main_arg3 (ix2 cc ((((cfg2.win 3).blk t).view.emb j) 1))
    refine congrArg _ (funext fun a => Fin.ext ?_)
    match a with
    | ⟨0, _⟩ =>
      show win2_1.index t (0 : Fin 2) * 16 + 1 * cc.val = cc.val
      omega
    | ⟨1, _⟩ =>
      show win2_1.index t (1 : Fin 2) * 16 + 1 * (j 1).val = win2_3.index t (1 : Fin 2) * 16 + 1 * (j 1).val
      omega
  · show V c main_v34 (((cfg2.win 2).blk t).view.emb (ix2 (j 0) ⟨0, Nat.one_pos⟩))
      = V c main_v34 (ix2 ((((cfg2.win 3).blk t).view.emb j) 0) ⟨0, Nat.one_pos⟩)
    refine congrArg _ (funext fun a => Fin.ext ?_)
    match a with
    | ⟨0, _⟩ =>
      show win2_2.index t (0 : Fin 2) * 10000 + 1 * (j 0).val = win2_3.index t (0 : Fin 2) * 10000 + 1 * (j 0).val
      omega
    | ⟨1, _⟩ =>
      show win2_2.index t (1 : Fin 2) * 1 + 1 * 0 = 0
      omega

/-- An index of the output array is in point `t`'s block iff each coordinate is in the block's range on its axis. -/
theorem mem_blk (t : Fin cfg2.N) (i : S100000x16.Idx) :
    i ∈ ((cfg2.win 3).blk t).view.set ↔ ∀ a : Fin 2, win2_3.index t a * S10000x16.size a ≤ (i a).val
      ∧ (i a).val < win2_3.index t a * S10000x16.size a + S10000x16.size a := by
  show i ∈ ((View.whole main_v35).slice (win2_3.rect t)).set ↔ _
  rw [View.set_slice_whole, Rect.mem_set_unit]
  exact Iff.rfl

/-- Every row r of the output is in the block of the point r / 10000. -/
theorem cover (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  obtain ⟨t, ht⟩ : ∃ t : Fin cfg2.N, t.val = (i 0).val / 10000 :=
    ⟨⟨(i 0).val / 10000, lt_of_lt_of_eq (by omega : (i 0).val / 10000 < 10) N_2.symm⟩, rfl⟩
  obtain ⟨-, -, -, -, -, -, e30, e31⟩ := idx_facts t
  refine ⟨t, flush2_3 t, ?_⟩
  rw [mem_blk]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 16 ≤ (i 1).val ∧ (i 1).val < win2_3.index t (1 : Fin 2) * 16 + 16
    omega

/-- THE OUTPUT ARRAY after the region: the scaled product of the three input arrays, index by index. -/
theorem final2 (c : Dev nD) :
    (dat2 (F := Ideal) V c).arrAt 3 cfg2.N = linS (V c main_v33) (V c main_arg3) (V c main_v34) :=
  (dat2 (F := Ideal) V c).arrAt_eq_of_cover 3 (linS (V c main_v33) (V c main_arg3) (V c main_v34))
    (fun t _ => flushed_eq V c t) cover

end Region

end Cert.Gcn.Lin2

end
-- ==== Proof.Whole13.lean ====
/-
  Regions whose grid is a single point and whose blocks are whole arrays: the one store of the body goes through the
  whole rectangle, so the array after the region is the body's pointwise payload of the arrays the region finds.
-/
import proofs.«162427_j48808008351905_2_alg».proof.Proof.Gen.KernelIdeal.Frame
import Idealize.ShloMosaic.Lib.Pipeline.Value
import Idealize.ShloMosaic.PureOps.Ideal

noncomputable section

namespace Cert.Gcn.Whole

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-array access, as a constant function. -/
theorem hz : (![0, 0] : Fin 2 → Nat) = fun _ => 0 := funext fun a => by fin_cases a <;> rfl

/-! ## Region 1 -/

/-- The block of window 0 at the single point is its whole array. -/
theorem iblk1_0 (c : Dev nD) : iblk1 (F := Ideal) V c 0 t1_0 = V c main_v24 := by
  unfold iblk1
  have hz' : (fun a => win1_0.index t1_0 a * main_v24.ty.shape.size a) = fun _ => 0 :=
    funext fun a => by fin_cases a <;> decide
  exact Memref.read_access_unit_zero (Elt Ideal) main_v24 hz' (fun a => by rw [congrFun hz' a]; simp) (V c main_v24)

/-- The block of window 1 at the single point is its whole array. -/
theorem iblk1_1 (c : Dev nD) : iblk1 (F := Ideal) V c 1 t1_0 = V c main_v27 := by
  unfold iblk1
  have hz' : (fun a => win1_1.index t1_0 a * main_v27.ty.shape.size a) = fun _ => 0 :=
    funext fun a => by fin_cases a <;> decide
  exact Memref.read_access_unit_zero (Elt Ideal) main_v27 hz' (fun a => by rw [congrFun hz' a]; simp) (V c main_v27)

/-- The block of window 2 at the single point is its whole array. -/
theorem iblk1_2 (c : Dev nD) : iblk1 (F := Ideal) V c 2 t1_0 = V c main_v31 := by
  unfold iblk1
  have hz' : (fun a => win1_2.index t1_0 a * main_v31.ty.shape.size a) = fun _ => 0 :=
    funext fun a => by fin_cases a <;> decide
  exact Memref.read_access_unit_zero (Elt Ideal) main_v31 hz' (fun a => by rw [congrFun hz' a]; simp) (V c main_v31)

/-- What the single point writes back is the payload of the arrays the region finds, read through the block. -/
theorem flushed1_eq (c : Dev nD) (t : Fin cfg1.N) (hf : (cfg1.win 3).flush t = true) :
    (dat1 (F := Ideal) V c).flushed 3 t
      = ((cfg1.win 3).blk t).view.read (Elt Ideal) (k1_pay1 (F := Ideal) (V c main_v24) (V c main_v27) (V c main_v31)) := by
  obtain rfl : t = t1_0 := fin_N1 t
  show (cfg1.win 3).cut (grid1.coords t1_0) ((dat1 (F := Ideal) V c).after 3 t1_0) = _
  rw [after1_3, iblk1_0, iblk1_1, iblk1_2]
  unfold out1_3
  rw [View.canon_unit_zero hz]
  simp only [View.ld_unit_zero (S := S12500x128) hz, View.ld_unit_zero (S := S1x128) hz]
  have hz' : (fun a => win1_3.index t1_0 a * main_v32.ty.shape.size a) = fun _ => 0 :=
    funext fun a => by fin_cases a <;> decide
  exact (Memref.read_access_unit_zero (Elt Ideal) main_v32 hz' (fun a => by rw [congrFun hz' a]; simp) _).symm

/-- THE ARRAY AFTER REGION 1: the payload of the arrays the region finds (the single point's block covers it). -/
theorem final1 (c : Dev nD) :
    (dat1 (F := Ideal) V c).arrAt 3 cfg1.N = k1_pay1 (F := Ideal) (V c main_v24) (V c main_v27) (V c main_v31) :=
  (dat1 (F := Ideal) V c).arrAt_eq_of_cover 3 _ (flushed1_eq V c) fun i =>
    ⟨t1_0, flush1_3 t1_0, by
      show i ∈ ((View.whole main_v32).slice (win1_3.rect t1_0)).set
      rw [View.set_slice_whole, Rect.mem_set_unit]
      intro a
      have h0 : (i 0 : Nat) < 12500 := (i 0).isLt
      have h1 : (i 1 : Nat) < 128 := (i 1).isLt
      match a with
      | ⟨0, _⟩ =>
        show win1_3.index t1_0 0 * win1_3.size 0 ≤ (i 0 : Nat)
          ∧ (i 0 : Nat) < win1_3.index t1_0 0 * win1_3.size 0 + win1_3.xsize (grid1.coords t1_0) 0
        rw [show win1_3.index t1_0 0 * win1_3.size 0 = 0 from by decide +kernel,
          show win1_3.xsize (grid1.coords t1_0) 0 = 12500 from by decide +kernel]
        omega
      | ⟨1, _⟩ =>
        show win1_3.index t1_0 1 * win1_3.size 1 ≤ (i 1 : Nat)
          ∧ (i 1 : Nat) < win1_3.index t1_0 1 * win1_3.size 1 + win1_3.xsize (grid1.coords t1_0) 1
        rw [show win1_3.index t1_0 1 * win1_3.size 1 = 0 from by decide +kernel,
          show win1_3.xsize (grid1.coords t1_0) 1 = 128 from by decide +kernel]
        omega⟩

/-! ## Region 3 -/

/-- The block of window 0 at the single point is its whole array. -/
theorem iblk3_0 (c : Dev nD) : iblk3 (F := Ideal) V c 0 t3_0 = V c main_v46 := by
  unfold iblk3
  have hz' : (fun a => win3_0.index t3_0 a * main_v46.ty.shape.size a) = fun _ => 0 :=
    funext fun a => by fin_cases a <;> decide
  exact Memref.read_access_unit_zero (Elt Ideal) main_v46 hz' (fun a => by rw [congrFun hz' a]; simp) (V c main_v46)

/-- The block of window 1 at the single point is its whole array. -/
theorem iblk3_1 (c : Dev nD) : iblk3 (F := Ideal) V c 1 t3_0 = V c main_v49 := by
  unfold iblk3
  have hz' : (fun a => win3_1.index t3_0 a * main_v49.ty.shape.size a) = fun _ => 0 :=
    funext fun a => by fin_cases a <;> decide
  exact Memref.read_access_unit_zero (Elt Ideal) main_v49 hz' (fun a => by rw [congrFun hz' a]; simp) (V c main_v49)

/-- The block of window 2 at the single point is its whole array. -/
theorem iblk3_2 (c : Dev nD) : iblk3 (F := Ideal) V c 2 t3_0 = V c main_v53 := by
  unfold iblk3
  have hz' : (fun a => win3_2.index t3_0 a * main_v53.ty.shape.size a) = fun _ => 0 :=
    funext fun a => by fin_cases a <;> decide
  exact Memref.read_access_unit_zero (Elt Ideal) main_v53 hz' (fun a => by rw [congrFun hz' a]; simp) (V c main_v53)

/-- The block of window 3 at the single point is its whole array. -/
theorem iblk3_3 (c : Dev nD) : iblk3 (F := Ideal) V c 3 t3_0 = V c main_v54 := by
  unfold iblk3
  have hz' : (fun a => win3_3.index t3_0 a * main_v54.ty.shape.size a) = fun _ => 0 :=
    funext fun a => by fin_cases a <;> decide
  exact Memref.read_access_unit_zero (Elt Ideal) main_v54 hz' (fun a => by rw [congrFun hz' a]; simp) (V c main_v54)

/-- What the single point writes back is the payload of the arrays the region finds, read through the block. -/
theorem flushed3_eq (c : Dev nD) (t : Fin cfg3.N) (hf : (cfg3.win 4).flush t = true) :
    (dat3 (F := Ideal) V c).flushed 4 t
      = ((cfg3.win 4).blk t).view.read (Elt Ideal) (k3_pay1 (F := Ideal) (V c main_v46) (V c main_v49) (V c main_v53) (V c main_v54)) := by
  obtain rfl : t = t3_0 := fin_N3 t
  show (cfg3.win 4).cut (grid3.coords t3_0) ((dat3 (F := Ideal) V c).after 4 t3_0) = _
  rw [after3_4, iblk3_0, iblk3_1, iblk3_2, iblk3_3]
  unfold out3_4
  rw [View.canon_unit_zero hz]
  simp only [View.ld_unit_zero (S := S12500x128) hz, View.ld_unit_zero (S := S1x128) hz]
  have hz' : (fun a => win3_4.index t3_0 a * main_v55.ty.shape.size a) = fun _ => 0 :=
    funext fun a => by fin_cases a <;> decide
  exact (Memref.read_access_unit_zero (Elt Ideal) main_v55 hz' (fun a => by rw [congrFun hz' a]; simp) _).symm

/-- THE ARRAY AFTER REGION 3: the payload of the arrays the region finds (the single point's block covers it). -/
theorem final3 (c : Dev nD) :
    (dat3 (F := Ideal) V c).arrAt 4 cfg3.N = k3_pay1 (F := Ideal) (V c main_v46) (V c main_v49) (V c main_v53) (V c main_v54) :=
  (dat3 (F := Ideal) V c).arrAt_eq_of_cover 4 _ (flushed3_eq V c) fun i =>
    ⟨t3_0, flush3_4 t3_0, by
      show i ∈ ((View.whole main_v55).slice (win3_4.rect t3_0)).set
      rw [View.set_slice_whole, Rect.mem_set_unit]
      intro a
      have h0 : (i 0 : Nat) < 12500 := (i 0).isLt
      have h1 : (i 1 : Nat) < 128 := (i 1).isLt
      match a with
      | ⟨0, _⟩ =>
        show win3_4.index t3_0 0 * win3_4.size 0 ≤ (i 0 : Nat)
          ∧ (i 0 : Nat) < win3_4.index t3_0 0 * win3_4.size 0 + win3_4.xsize (grid3.coords t3_0) 0
        rw [show win3_4.index t3_0 0 * win3_4.size 0 = 0 from by decide +kernel,
          show win3_4.xsize (grid3.coords t3_0) 0 = 12500 from by decide +kernel]
        omega
      | ⟨1, _⟩ =>
        show win3_4.index t3_0 1 * win3_4.size 1 ≤ (i 1 : Nat)
          ∧ (i 1 : Nat) < win3_4.index t3_0 1 * win3_4.size 1 + win3_4.xsize (grid3.coords t3_0) 1
        rw [show win3_4.index t3_0 1 * win3_4.size 1 = 0 from by decide +kernel,
          show win3_4.xsize (grid3.coords t3_0) 1 = 128 from by decide +kernel]
        omega⟩

end Cert.Gcn.Whole

end
-- ==== Proof.Dense.lean ====
/-
  The lane-dense layout of the node tables, read element by element.

  A table of shape [100000, 16] is packed into [12500, 128] by a row-major reshape: entry (n, k) has flat position
  16 n + k = 128 (n / 8) + (16 (n % 8) + k), so it sits in packed row n / 8 at lane 16 (n % 8) + k. The per-node factor
  d is laid out the same way after being repeated along the 16 lanes of its node ([100000] -> [12500, 8, 1] ->
  [12500, 8, 16] -> [12500, 128]): at the packed position of (n, k) it is d(n). The bias is tiled eight times along one
  packed row ([16] -> [1, 16] -> [8, 16] -> [128] -> [1, 128]): at the lane of (n, k) it is b(k). The two pointwise
  bodies computed on the packed layout, read back through the unpacking, are therefore the entrywise formulas
    max(a(n, k) d(n) + b(k), 0)      and      z + e(n, k) exp(z / 2)  with  z = a(n, k) d(n) + b(k).
-/
import proofs.«162427_j48808008351905_2_alg».proof.Proof.KSpec
import proofs.«162427_j48808008351905_2_alg».proof.Proof.Formula
import Idealize.ShloMosaic.Lib.Pipeline.Value
import Idealize.ShloMosaic.Lib.ValueLayout
import Idealize.ShloMosaic.PureOps.Ideal.Laws

noncomputable section

namespace Cert.Gcn.KRead

open Cert.KernelIdeal Cert.Gcn Idealize.ShloMosaic Idealize.ShloMosaic.ValueIdx

/-- The packed row that holds node `n`. -/
def pr (n : Fin 100000) : Fin 12500 := ⟨n.val / 8, by have := n.isLt; omega⟩
/-- The place of node `n` among the eight nodes of its packed row. -/
def pq (n : Fin 100000) : Fin 8 := ⟨n.val % 8, by omega⟩
/-- The packed lane that holds entry `(n, k)`. -/
def pl (n : Fin 100000) (k : Fin 16) : Fin 128 := ⟨16 * (n.val % 8) + k.val, by have := k.isLt; omega⟩

/-- The unpacked table at `(n, k)` is the packed one at row `n / 8`, lane `16 (n % 8) + k`. -/
theorem unpackT_apply (A : FV S12500x128) (n : Fin 100000) (k : Fin 16) :
    unpackT A (ix2 n k) = A (ix2 (pr n) (pl n k)) := by
  unfold unpackT
  refine shapeCast_apply A _ _ _ ?_
  rw [Shape.rowMajor_val_two, Shape.rowMajor_val_two]
  show (n.val / 8) * 128 + (16 * (n.val % 8) + k.val) = n.val * 16 + k.val
  omega

/-- The packed table at the packed position of `(n, k)` is the table at `(n, k)`. -/
theorem packT_apply (a : FV S100000x16) (n : Fin 100000) (k : Fin 16) :
    packT a (ix2 (pr n) (pl n k)) = a (ix2 n k) := by
  unfold packT
  refine shapeCast_apply a _ _ _ ?_
  rw [Shape.rowMajor_val_two, Shape.rowMajor_val_two]
  show n.val * 16 + k.val = (n.val / 8) * 128 + (16 * (n.val % 8) + k.val)
  omega

/-- The per-node factor in the packed layout, at the packed position of `(n, k)`, is the factor of node `n`. -/
theorem disDenseT_apply (d : FV S100000) (n : Fin 100000) (k : Fin 16) :
    disDenseT d (ix2 (pr n) (pl n k)) = d (ix1 n) := by
  unfold disDenseT
  refine (shapeCast_apply _ _ _ (ix3 (pr n) (pq n) k) ?_).trans ?_
  · rw [Shape.rowMajor_val_three, Shape.rowMajor_val_two]
    show ((n.val / 8) * 8 + n.val % 8) * 16 + k.val = (n.val / 8) * 128 + (16 * (n.val % 8) + k.val)
    omega
  refine (broadcastInDim_apply _ _ _ _ (ix3 (pr n) (pq n) (0 : Fin 1)) ?_).trans ?_
  · intro ax
    match ax with
    | ⟨0, _⟩ => rfl
    | ⟨1, _⟩ => rfl
    | ⟨2, _⟩ => rfl
  refine shapeCast_apply d _ _ _ ?_
  rw [Shape.rowMajor_val_three, Shape.rowMajor_val_one]
  show n.val = ((n.val / 8) * 8 + n.val % 8) * 1 + 0
  omega

/-- The tiled bias at the lane of `(n, k)` is the bias at `k`. -/
theorem biasDenseT_apply (b : FV S16) (u : Fin 1) (n : Fin 100000) (k : Fin 16) :
    biasDenseT b (ix2 u (pl n k)) = b (ix1 k) := by
  unfold biasDenseT
  refine (shapeCast_a_1a_apply _ _ u (pl n k)).trans ?_
  refine (shapeCast_apply _ _ _ (ix2 (pq n) k) ?_).trans ?_
  · rw [Shape.rowMajor_val_two, Shape.rowMajor_val_one]
    show (n.val % 8) * 16 + k.val = 16 * (n.val % 8) + k.val
    omega
  refine (broadcastInDim_apply _ _ _ _ (ix2 (0 : Fin 1) k) ?_).trans ?_
  · intro ax
    match ax with
    | ⟨0, _⟩ => rfl
    | ⟨1, _⟩ => rfl
  exact shapeCast_a_1a_apply b _ (0 : Fin 1) k

/-- The exponential of an array, read at an index. -/
theorem exp_apply {s : Shape} {φ : FTy} (a : FVec Ideal s φ) (i : s.Idx) : exp a i = Ideal.exp (a i) := rfl

/-- The first pointwise body at a packed position: multiply, add the broadcast bias row, clamp below at zero. -/
theorem k1_pay1_apply (v0 v2 : FV S12500x128) (v5 : FV S1x128) (r : Fin 12500) (l : Fin 128) :
    Gen.k1_pay1 (F := Ideal) v0 v2 v5 (ix2 r l) = max (v0 (ix2 r l) * v2 (ix2 r l) + v5 (ix2 (0 : Fin 1) l)) 0 := by
  unfold Gen.k1_pay1
  simp only [shapeCast_self]
  rw [maximumf_apply, addf_apply, mulf_apply, broadcast_apply, broadcastTo_1b_ab_apply]
  exact congrArg _ Ideal.ofBits_zero_f32

/-- The second pointwise body at a packed position: with `z` the scaled entry plus the bias, `z + e exp(z / 2)`. -/
theorem k3_pay1_apply (v0 v2 : FV S12500x128) (v5 : FV S1x128) (v9 : FV S12500x128) (r : Fin 12500) (l : Fin 128) :
    Gen.k3_pay1 (F := Ideal) v0 v2 v5 v9 (ix2 r l)
      = (v0 (ix2 r l) * v2 (ix2 r l) + v5 (ix2 (0 : Fin 1) l))
        + v9 (ix2 r l) * Ideal.exp (half * (v0 (ix2 r l) * v2 (ix2 r l) + v5 (ix2 (0 : Fin 1) l))) := by
  unfold Gen.k3_pay1
  simp only [shapeCast_self]
  rw [addf_apply, addf_apply, mulf_apply, mulf_apply, broadcastTo_1b_ab_apply, exp_apply, mulf_apply, broadcast_apply,
    addf_apply, mulf_apply, broadcastTo_1b_ab_apply]
  rfl

/-- The first body on the packed layout, read back at `(n, k)`: `max(a(n, k) d(n) + b(k), 0)`. -/
theorem relu_dense_apply (a : FV S100000x16) (d : FV S100000) (b : FV S16) (n : Fin 100000) (k : Fin 16) :
    unpackT (Gen.k1_pay1 (F := Ideal) (packT a) (disDenseT d) (biasDenseT b)) (ix2 n k)
      = max (a (ix2 n k) * d (ix1 n) + b (ix1 k)) 0 := by
  rw [unpackT_apply, k1_pay1_apply, packT_apply, disDenseT_apply, biasDenseT_apply]

/-- The second body on the packed layout, read back at `(n, k)`: `z + e(n, k) exp(z / 2)`, `z = a(n, k) d(n) + b(k)`. -/
theorem reparam_dense_apply (a : FV S100000x16) (d : FV S100000) (b : FV S16) (e : FV S100000x16)
    (n : Fin 100000) (k : Fin 16) :
    unpackT (Gen.k3_pay1 (F := Ideal) (packT a) (disDenseT d) (biasDenseT b) (packT e)) (ix2 n k)
      = (a (ix2 n k) * d (ix1 n) + b (ix1 k))
        + e (ix2 n k) * Ideal.exp (half * (a (ix2 n k) * d (ix1 n) + b (ix1 k))) := by
  rw [unpackT_apply, k3_pay1_apply, packT_apply, packT_apply, disDenseT_apply, biasDenseT_apply]

end Cert.Gcn.KRead

end
-- ==== Proof.LibGatherRows.lean ====
/-
  A gather of rows, read at one element.

  The host's gather `x[idx]` along the leading axis reads, for each result row, one index word; the word is read as a
  signed integer and clamped into `[0, N − 1]` (so that the slice of one row fits in the operand), and the result row is
  the operand's row at that clamped position. For the two layouts such a lookup lowers to this file computes the operand
  index a result element reads:

  * rows: operand `[N, C]`, one index word per result row (start indices `[E, 1]`), result `[E, C]`, slices of one whole
    row. Result element `(e, k)` is the operand at `(clamp (idx e), k)`.
  * scalars: operand `[N]`, start indices `[E, 1]`, result `[E]`, slices of one element. Result element `e` is the
    operand at `clamp (idx e)`.

  Here `clamp z = min (toNat z) (N − 1)`: a negative word reads row 0, a word past the end reads the last row. The
  element type is arbitrary: a gather only moves elements.
-/
import Idealize.ShloMosaic.PureOps.Ideal
import Idealize.ShloMosaic.Lib.ValueIdx

noncomputable section

namespace Idealize.ShloMosaic.GatherAt

open Idealize.ShloMosaic Idealize.ShloMosaic.ValueIdx

/-! ## Rows: operand `[N, C]`, start indices `[E, 1]`, result `[E, C]` -/

section Rows
variable {α : Type} {N C E w : Nat}

/-- The dimension numbers of a row gather: the result's axis 1 is the offset axis and reads the operand's axis 1 (a whole
    row is one slice), the operand's axis 0 is collapsed and is the one the index word addresses, the index vector is the
    start indices' axis 1 (of extent one). -/
abbrev rowGDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- On the addressed axis the slice starts at the result row's index word, read signed and clamped into `[0, N − 1]`. -/
theorem rowGDims_start0 (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (rowGDims N C E wf).start j idx 0 = min (idx (ix2 (j 0) ⟨0, Nat.one_pos⟩)).toInt.toNat (N - 1) := by
  unfold GatherDims.start
  rw [dif_pos (show (0 : Fin 2) ∈ (rowGDims N C E wf).startIndexMap from List.mem_singleton.mpr rfl)]
  have hsi : (rowGDims N C E wf).siIdx j ⟨List.idxOf (0 : Fin 2) (rowGDims N C E wf).startIndexMap,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the row's own axis the slice starts at zero. -/
theorem rowGDims_start1 (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (rowGDims N C E wf).start j idx 1 = 0 := by
  unfold GatherDims.start
  rw [dif_neg (show ¬ (1 : Fin 2) ∈ (rowGDims N C E wf).startIndexMap from by simp)]

/-- The addressed axis is collapsed: it has no offset coordinate. -/
theorem rowGDims_off0 (wf : GatherDims.WF ⟨2, ![N, C]⟩ ⟨2, ![E, 1]⟩ ⟨2, ![E, C]⟩ [1] [0] [] [0] [] 1 ![1, C])
    (j : (⟨2, ![E, C]⟩ : Shape).Idx) : (rowGDims N C E wf).offCoord j 0 = 0 :=
  GatherDims.offCoord_eq_zero _ _ _ (fun h => ((GatherDims.mem_sKept _ _).mp h).1 (List.mem_singleton.mpr rfl))

/-- The offset coordinate on the operand's axis 1 is the result's column. -/
theorem rowGDims_off1 (wf : GatherDims.WF ⟨2, ![N, C]⟩ ⟨2, ![E, 1]⟩ ⟨2, ![E, C]⟩ [1] [0] [] [0] [] 1 ![1, C])
    (j : (⟨2, ![E, C]⟩ : Shape).Idx) : (rowGDims N C E wf).offCoord j 1 = (j 1).val := by
  unfold GatherDims.offCoord
  rw [dif_pos (show (1 : Fin 2) ∈ (rowGDims N C E wf).sKept from by simp [GatherDims.sKept, Shape.kept])]
  rfl

/-- THE ROW GATHER READ AT `(e, k)`: the operand at row "index word of `e`, read signed and clamped into
    `[0, N − 1]`", column `k`. -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGDims N C E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ =>
    show (rowGDims N C E wf).start (ix2 e k) idx 0 + (rowGDims N C E wf).batchCoord (ix2 e k) 0
      + (rowGDims N C E wf).offCoord (ix2 e k) 0 = _
    rw [GatherDims.batchCoord_eq_zero _ _ _ List.not_mem_nil, rowGDims_off0, rowGDims_start0]
    rfl
  | ⟨1, _⟩ =>
    show (rowGDims N C E wf).start (ix2 e k) idx 1 + (rowGDims N C E wf).batchCoord (ix2 e k) 1
      + (rowGDims N C E wf).offCoord (ix2 e k) 1 = _
    rw [GatherDims.batchCoord_eq_zero _ _ _ List.not_mem_nil, rowGDims_off1, rowGDims_start1]
    simp only [Nat.add_zero, Nat.zero_add]
    rfl

end Rows

/-! ## Scalars: operand `[N]`, start indices `[E, 1]`, result `[E]` -/

section Scalars
variable {α : Type} {N E w : Nat}

/-- The dimension numbers of a scalar gather: no offset axis (a slice is one element); the operand's one axis is collapsed
    and addressed by the index word; the index vector is the start indices' axis 1 (of extent one). -/
abbrev vecGDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The slice starts at the result element's index word, read signed and clamped into `[0, N − 1]`. -/
theorem vecGDims_start0 (wf : GatherDims.WF ⟨1, ![N]⟩ ⟨2, ![E, 1]⟩ ⟨1, ![E]⟩ [] [0] [] [0] [] 1 ![1])
    (j : (⟨1, ![E]⟩ : Shape).Idx) (idx : IVec ⟨2, ![E, 1]⟩ w) :
    (vecGDims N E wf).start j idx 0 = min (idx (ix2 (j 0) ⟨0, Nat.one_pos⟩)).toInt.toNat (N - 1) := by
  unfold GatherDims.start
  rw [dif_pos (show (0 : Fin 1) ∈ (vecGDims N E wf).startIndexMap from List.mem_singleton.mpr rfl)]
  have hsi : (vecGDims N E wf).siIdx j ⟨List.idxOf (0 : Fin 1) (vecGDims N E wf).startIndexMap,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- THE SCALAR GATHER READ AT `e`: the operand at "index word of `e`, read signed and clamped into `[0, N − 1]`". -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGDims N E wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (vecGDims N E wf).start (ix1 e) idx 0 + (vecGDims N E wf).batchCoord (ix1 e) 0
    + (vecGDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl)),
    vecGDims_start0]
  rfl

end Scalars

end Idealize.ShloMosaic.GatherAt

end
-- ==== Proof.LibColumnCast.lean ====
/-
  A vector of length n and the column [n, 1] that holds the same elements: a shape cast between the two keeps
  every element's row-major position, which is i for the vector's element i and i · 1 + 0 for the column's
  element (i, 0). So the cast to a column reads the vector at the row coordinate, and the cast back reads the
  column at (i, 0).
-/
import Idealize.ShloMosaic.Lib.ValueIdx
import Idealize.ShloMosaic.Lib.Pipeline.Value
import Idealize.ShloMosaic.Lib.ValueLayout

namespace Idealize.ShloMosaic.ColumnCast

open Idealize.ShloMosaic Idealize.ShloMosaic.ValueIdx

/-- A vector of length n cast to a column [n, 1] reads, at (i, u), the vector at i, whatever the unit
    coordinate u: the row-major positions are i · 1 + u with u = 0, and i. -/
theorem shapeCast_col_apply {α : Type} {n : ℕ} (x : (⟨1, ![n]⟩ : Shape).Idx → α)
    (h : (⟨1, ![n]⟩ : Shape).ShapeCasts (⟨2, ![n, 1]⟩ : Shape)) (i : Fin n) (u : Fin 1) :
    shapeCast (⟨2, ![n, 1]⟩ : Shape) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [n, 1] cast to a vector of length n reads, at i, the column at (i, 0): the row-major positions
    are i · 1 + 0 and i. -/
theorem shapeCast_uncol_apply {α : Type} {n : ℕ} (x : (⟨2, ![n, 1]⟩ : Shape).Idx → α)
    (h : (⟨2, ![n, 1]⟩ : Shape).ShapeCasts (⟨1, ![n]⟩ : Shape)) (i : Fin n) :
    shapeCast (⟨1, ![n]⟩ : Shape) x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnCast
-- ==== Proof.KRead.lean ====
/-
  The kernel's composed value, read at one entry.

  Each layer is computed as: a dense product scaled row by row by dis; the edge sum (row e of a gathered table is the
  row of its source node, and the rows are added into the row of their destination node, starting from zeros); and, on
  the lane-dense layout, the second scaling by dis, the bias and the activation. Reading each stage at an index —
  the additive scatter as a guarded sum over the edges, the gather as the table row of the clamped source word, the
  lane-dense bodies as entrywise formulas — turns the composed value at (n, k) into the index-by-index formula
    z + eps(n, k) exp(z / 2),   z = layer(max(layer(x, W1, b1), 0), W2, b2)(n, k),
    layer(f, w, b)(n, k) = (0 + sum over edges e into n of (sum_c f(s e, c) w(c, k)) dis(s e)) dis(n) + b(k).
-/
import proofs.«162427_j48808008351905_2_alg».proof.Proof.Dense
import proofs.«162427_j48808008351905_2_alg».proof.Proof.LibScatterAdd
import proofs.«162427_j48808008351905_2_alg».proof.Proof.LibGatherRows
import proofs.«162427_j48808008351905_2_alg».proof.Proof.LibColumnCast

noncomputable section

open scoped BigOperators

namespace Cert.Gcn.KRead

open Cert.KernelIdeal Cert.KernelIdeal.Facts₀ Cert.Gcn Idealize.ShloMosaic Idealize.ShloMosaic.ValueIdx

/-- The edge sum's additive scatter at `(n, k)`: the operand's entry plus, over the update rows whose index word is `n`,
    their column-`k` entries. -/
theorem scatter_row_apply (z : FV S100000x16) (dw : IV S3300000) (U : FV S3300000x16) (n : Fin 100000) (k : Fin 16) :
    Host.scatterAdd (F := Ideal) scatter_S100000x16_S3300000x1_S3300000x16_1_0_0_1 z (colI dw) U (ix2 n k)
      = z (ix2 n k) + ∑ e : Fin 3300000,
          if ScatterAddAt.rowWord (colI dw) e = (n.val : Int) then U (ix2 e k) else 0 :=
  ScatterAddAt.rowScatterAdd_apply scatter_S100000x16_S3300000x1_S3300000x16_1_0_0_1_wf z (colI dw) U n k

/-- The edge sum's gather reads, at `(e, k)`, the table at the row of edge `e`'s source, column `k`. -/
theorem gather_row_apply (f : FV S100000x16) (w : IV S3300000) (e : Fin 3300000) (k : Fin 16) :
    Host.gather gather_S100000x16_S3300000x1_S3300000x16_1_0_n_n_0_1_116 f (colI (normI w)) (ix2 e k)
      = f (ix2 (rowE w e) k) :=
  GatherAt.rowGather_apply (N := 100000) (C := 16) (E := 3300000) (by decide)
    gather_S100000x16_S3300000x1_S3300000x16_1_0_n_n_0_1_116_wf f (colI (normI w)) e k

/-- The array of zeros the rows are added into. -/
theorem zeros_apply (n : Fin 100000) (k : Fin 16) :
    broadcastInDim S100000x16 ![] bcast_S_S100000x16 (constant (F := Ideal) S_ .f32 0x00000000#32) (ix2 n k) = 0 := by
  rw [broadcastInDim_apply (s := S_) _ _ _ (ix2 n k) ix0 (fun a => a.elim0), constant_apply, Ideal.ofBits_zero_f32]

/-- The edge sum at `(n, k)`: zero plus, over the edges whose destination word is `n`, the table's entry at the
    source row of the edge, column `k`. -/
theorem agg_apply (src dst : IV S3300000) (f : FV S100000x16) (n : Fin 100000) (k : Fin 16) :
    aggT src dst f (ix2 n k)
      = 0 + ∑ e : Fin 3300000,
          if ScatterAddAt.rowWord (colI dst) e = (n.val : Int) then f (ix2 (rowE src e) k) else 0 := by
  rw [aggT, scatter_row_apply, zeros_apply]
  refine congrArg (fun s => 0 + s) (Finset.sum_congr rfl fun e _ => ?_)
  rw [gather_row_apply]

/-- The scaled dense product at `(m, k)`: the row of `f` against the column of `w`, times the factor of node `m`. -/
theorem linS_apply {K : Nat} (f : (⟨2, ![100000, K]⟩ : Shape).Idx → EReal) (w : (⟨2, ![K, 16]⟩ : Shape).Idx → EReal)
    (d : FV S100000) (m : Fin 100000) (k : Fin 16) :
    linS f w (disCol d) (ix2 m k) = (∑ c : Fin K, f (ix2 m c) * w (ix2 c k)) * d (ix1 m) := by
  unfold linS disCol
  show (∑ c : Fin K, f (ix2 m c) * w (ix2 c k)) * shapeCast S100000x1 d _ (ix2 m ⟨0, Nat.one_pos⟩) = _
  rw [ColumnCast.shapeCast_col_apply]

/-- One layer's pre-activation as the kernel computes it — scaled product, edge sum, second scaling, bias — is the
    index-by-index layer formula. -/
theorem layer_apply {K : Nat} (ei : IV S2x3200000) (f : (⟨2, ![100000, K]⟩ : Shape).Idx → EReal)
    (w : (⟨2, ![K, 16]⟩ : Shape).Idx → EReal) (b : FV S16) (n : Fin 100000) (k : Fin 16) :
    aggT (srcW ei) (dstW ei) (linS f w (disCol (disT (dstW ei)))) (ix2 n k) * disT (dstW ei) (ix1 n) + b (ix1 k)
      = layK (hitE ei) (rowE (srcW ei)) (disE ei) (fun a c => f (ix2 a c)) (fun c j => w (ix2 c j))
          (fun j => b (ix1 j)) n k := by
  rw [agg_apply, layK]
  refine congrArg₂ (· + ·) (congrArg₂ (· * ·) (congrArg (0 + ·) (Finset.sum_congr rfl fun e _ => ?_)) rfl) rfl
  exact if_congr Iff.rfl (linS_apply f w (disT (dstW ei)) (rowE (srcW ei) e) k) rfl

/-- THE KERNEL'S VALUE AT `(n, k)` is the index-by-index formula `outK`. -/
theorem KTerm_apply (x : FV S100000x512) (W1 : FV S512x16) (b1 : FV S16) (W2 : FV S16x16) (b2 : FV S16)
    (eps : FV S100000x16) (ei : IV S2x3200000) (n : Fin 100000) (k : Fin 16) :
    KTerm x W1 b1 W2 b2 eps ei (ix2 n k) = outK ei x W1 b1 W2 b2 eps n k := by
  have h1 : ∀ (a : Fin 100000) (c : Fin 16),
      unpackT (Gen.k1_pay1 (F := Ideal) (packT (aggT (srcW ei) (dstW ei) (linS x W1 (disCol (disT (dstW ei))))))
        (disDenseT (disT (dstW ei))) (biasDenseT b1)) (ix2 a c)
        = max (layK (hitE ei) (rowE (srcW ei)) (disE ei) (fun a c => x (ix2 a c)) (fun c j => W1 (ix2 c j))
            (fun j => b1 (ix1 j)) a c) 0 := by
    intro a c
    rw [relu_dense_apply, layer_apply]
  have hH : (fun (a : Fin 100000) (c : Fin 16) =>
      unpackT (Gen.k1_pay1 (F := Ideal) (packT (aggT (srcW ei) (dstW ei) (linS x W1 (disCol (disT (dstW ei))))))
        (disDenseT (disT (dstW ei))) (biasDenseT b1)) (ix2 a c))
      = fun a c => max (layK (hitE ei) (rowE (srcW ei)) (disE ei) (fun a c => x (ix2 a c)) (fun c j => W1 (ix2 c j))
          (fun j => b1 (ix1 j)) a c) 0 := funext fun a => funext fun c => h1 a c
  rw [KTerm, reparam_dense_apply, layer_apply, hH, outK]

end Cert.Gcn.KRead

end
-- ==== Proof.RRead.lean ====
/-
  The reference program's result, read at one element.

  The reference computes a two-layer graph convolution edge by edge. With src / dst the edge lists extended by one
  self-loop per node, dis the inverse square roots of the in-degrees, s(e) / t(e) the table rows a lookup by src / dst
  reads for edge e, and hit(e, n) "edge e ends at node n", one layer's pre-activation at (n, k) is
      (0 + sum_e [hit e n] T(s e, k) (dis(s e) dis(t e))) + b(k),      T(a, k) = sum_c f(a, c) w(c, k):
  the dense product T, its rows looked up by src, the edge weights dis(s e) dis(t e) (two scalar lookups and a product)
  repeated along the 16 columns, the weighted rows added into zeros at the rows dst names, and the bias repeated along the
  rows. The first layer is followed by a maximum with zero, the second by  z + eps exp(z / 2).  Index by index this is
  the function outR of the argument arrays.
-/
import proofs.«162427_j48808008351905_2_alg».proof.Proof.Formula
import proofs.«162427_j48808008351905_2_alg».proof.Proof.LibGatherRows
import proofs.«162427_j48808008351905_2_alg».proof.Proof.Gen.ReferenceIdeal.Read

noncomputable section

open scoped BigOperators

namespace Cert.Gcn.RRead

open Cert.ReferenceIdeal Cert.ReferenceIdeal.Read Cert.ReferenceIdeal.Gen Idealize.ShloMosaic Idealize.ShloMosaic.TcCoe
  Idealize.SL.Sem Idealize.ShloMosaic.StableHlo Idealize.ShloMosaic.ValueIdx

/-! ## The three data-dependent operations at an element -/

/-- A scalar lookup through the wrapped index words of w reads the table at the row rowE w e. -/
theorem vecG (d : FV S100000) (w : IV S3300000) (e : Fin 3300000) :
    Host.gather gather_S100000_S3300000x1_S3300000_n_0_n_n_0_1_1 d (colI (normI w)) (ix1 e) = d (ix1 (rowE w e)) :=
  GatherAt.vecGather_apply (by decide) gather_S100000_S3300000x1_S3300000_n_0_n_n_0_1_1_wf d (colI (normI w)) e

/-- A row lookup through the wrapped index words of w reads, column by column, the table's row rowE w e. -/
theorem rowG (T : FV S100000x16) (w : IV S3300000) (e : Fin 3300000) (k : Fin 16) :
    Host.gather gather_S100000x16_S3300000x1_S3300000x16_1_0_n_n_0_1_116 T (colI (normI w)) (ix2 e k)
      = T (ix2 (rowE w e) k) :=
  GatherAt.rowGather_apply (by decide) gather_S100000x16_S3300000x1_S3300000x16_1_0_n_n_0_1_116_wf T (colI (normI w)) e k

/-- Rows added into z at the rows the words of dw name: element (n, k) receives column k of every row whose word is n. -/
theorem scatG (z : FV S100000x16) (dw : IV S3300000) (U : FV S3300000x16) (n : Fin 100000) (k : Fin 16) :
    Host.scatterAdd (F := Ideal) scatter_S100000x16_S3300000x1_S3300000x16_1_0_0_1 z (colI dw) U (ix2 n k)
      = z (ix2 n k) + ∑ e : Fin 3300000, if ScatterAddAt.rowWord (colI dw) e = (n.val : Int) then U (ix2 e k) else 0 :=
  ScatterAddAt.rowScatterAdd_apply scatter_S100000x16_S3300000x1_S3300000x16_1_0_0_1_wf z (colI dw) U n k

/-! ## One layer from its pieces -/

/-- A layer's pre-activation at (n, k), given each of its pieces at an element: the scatter's operand is zero, its index
    words are the destinations, the gathered rows are the rows of a table T read at the sources, the weights are the
    products of dis at the two ends, the bias is repeated along the rows, and T is the dense product of f and w. -/
theorem layer_at {K : Nat} (ei : IV S2x3200000) (z : FV S100000x16) (dc : IV S3300000x1) (G Wt : FV S3300000x16)
    (B : FV S100000x16) (T : Fin 100000 → Fin 16 → EReal) (b : Fin 16 → EReal)
    (f : Fin 100000 → Fin K → EReal) (w : Fin K → Fin 16 → EReal)
    (hz : ∀ n k, z (ix2 n k) = 0) (hdc : dc = colI (dstW ei))
    (hG : ∀ e k, G (ix2 e k) = T (rowE (srcW ei) e) k)
    (hW : ∀ e k, Wt (ix2 e k) = disE ei (rowE (srcW ei) e) * disE ei (rowE (dstW ei) e))
    (hB : ∀ n k, B (ix2 n k) = b k) (hT : ∀ a k, T a k = ∑ c : Fin K, f a c * w c k)
    (n : Fin 100000) (k : Fin 16) :
    addf (Host.scatterAdd (F := Ideal) scatter_S100000x16_S3300000x1_S3300000x16_1_0_0_1 z dc (mulf G Wt)) B (ix2 n k)
      = layR (hitE ei) (rowE (srcW ei)) (rowE (dstW ei)) (disE ei) f w b n k := by
  subst hdc
  rw [addf_apply, scatG, hz, hB]
  unfold layR
  refine congrArg (· + b k) (congrArg (0 + ·) (Finset.sum_congr rfl fun e _ => ?_))
  refine if_congr Iff.rfl ?_ rfl
  rw [mulf_apply, hG, hW, hT]

/-! ## The index arrays and dis are the specification's -/

section Arrays
variable (x6 : IV S2x3200000)

theorem dstC_eq : val_main_v39 (F := Ideal) x6 = colI (dstW x6) := rfl
theorem dstC2_eq : val_main_v72 (F := Ideal) x6 = colI (dstW x6) := rfl
theorem srcN1_eq : val_main_v18 (F := Ideal) x6 = colI (normI (srcW x6)) := rfl
theorem dstN1_eq : val_main_v25 (F := Ideal) x6 = colI (normI (dstW x6)) := rfl
theorem srcR1_eq : val_main_v33 (F := Ideal) x6 = colI (normI (srcW x6)) := rfl
theorem srcN2_eq : val_main_v51 (F := Ideal) x6 = colI (normI (srcW x6)) := rfl
theorem dstN2_eq : val_main_v58 (F := Ideal) x6 = colI (normI (dstW x6)) := rfl
theorem srcR2_eq : val_main_v66 (F := Ideal) x6 = colI (normI (srcW x6)) := rfl
theorem dis_eq : val_main_v11 (F := Ideal) x6 = disT (dstW x6) := rfl

end Arrays

/-! ## The pieces of the two layers at an element -/

section Pieces
variable (x0 : FV S100000x512) (x1 : FV S512x16) (x2 : FV S16) (x3 : FV S16x16) (x4 : FV S16) (x6 : IV S2x3200000)

/-- The first layer's scatter starts from zeros. -/
theorem zero1_at (n : Fin 100000) (k : Fin 16) : (val_main_v38 (F := Ideal) (ix2 n k) : EReal) = 0 := by
  rw [val_main_v38_apply, val_main_cst_6_apply]
  exact Ideal.ofBits_zero_f32

/-- The second layer's scatter starts from zeros. -/
theorem zero2_at (n : Fin 100000) (k : Fin 16) : (val_main_v71 (F := Ideal) (ix2 n k) : EReal) = 0 := by
  rw [val_main_v71_apply, val_main_cst_13_apply]
  exact Ideal.ofBits_zero_f32

/-- The first layer's edge weight, repeated along the columns: dis at the source row times dis at the destination row. -/
theorem weight1_at (e : Fin 3300000) (k : Fin 16) :
    val_main_v36 (F := Ideal) x6 (ix2 e k) = disE x6 (rowE (srcW x6) e) * disE x6 (rowE (dstW x6) e) := by
  have hi : idx_main_v35 (idx_main_v36 (ix2 e k)) = ix1 e := funext fun a => match a with | ⟨0, _⟩ => rfl
  rw [val_main_v36_apply, val_main_v35_apply, val_main_v27_apply, hi]
  unfold val_main_v19 val_main_v26 disE
  rw [srcN1_eq, dstN1_eq, dis_eq, vecG, vecG]
  rfl

/-- The second layer's edge weight: the same product. -/
theorem weight2_at (e : Fin 3300000) (k : Fin 16) :
    val_main_v69 (F := Ideal) x6 (ix2 e k) = disE x6 (rowE (srcW x6) e) * disE x6 (rowE (dstW x6) e) := by
  have hi : idx_main_v68 (idx_main_v69 (ix2 e k)) = ix1 e := funext fun a => match a with | ⟨0, _⟩ => rfl
  rw [val_main_v69_apply, val_main_v68_apply, val_main_v60_apply, hi]
  unfold val_main_v52 val_main_v59 disE
  rw [srcN2_eq, dstN2_eq, dis_eq, vecG, vecG]
  rfl

/-- The first layer's bias, repeated along the rows. -/
theorem bias1_at (n : Fin 100000) (k : Fin 16) : val_main_v42 (F := Ideal) x2 (ix2 n k) = x2 (ix1 k) := by
  rw [val_main_v42_apply, val_main_v41_apply]
  exact congrArg x2 (funext fun a => match a with | ⟨0, _⟩ => rfl)

/-- The second layer's bias, repeated along the rows. -/
theorem bias2_at (n : Fin 100000) (k : Fin 16) : val_main_v75 (F := Ideal) x4 (ix2 n k) = x4 (ix1 k) := by
  rw [val_main_v75_apply, val_main_v74_apply]
  exact congrArg x4 (funext fun a => match a with | ⟨0, _⟩ => rfl)

/-- The first dense product at (a, k). -/
theorem prod1_at (a : Fin 100000) (k : Fin 16) :
    val_main_v12 (F := Ideal) x0 x1 (ix2 a k) = ∑ c : Fin 512, x0 (ix2 a c) * x1 (ix2 c k) := by
  rw [val_main_v12_apply]
  refine Finset.sum_congr rfl fun c _ => ?_
  have hl : lidx_main_v12 (ix2 a k) c = ix2 a c := funext fun d => match d with | ⟨0, _⟩ => rfl | ⟨1, _⟩ => rfl
  have hr : ridx_main_v12 (ix2 a k) c = ix2 c k := funext fun d => match d with | ⟨0, _⟩ => rfl | ⟨1, _⟩ => rfl
  rw [hl, hr]

/-- The first layer's gathered rows: the rows of the first dense product at the sources. -/
theorem rows1_at (e : Fin 3300000) (k : Fin 16) :
    val_main_v34 (F := Ideal) x0 x1 x6 (ix2 e k) = val_main_v12 (F := Ideal) x0 x1 (ix2 (rowE (srcW x6) e) k) := by
  unfold val_main_v34
  rw [srcR1_eq, rowG]

/-- THE FIRST LAYER's pre-activation at (n, k). -/
theorem pre1_at (n : Fin 100000) (k : Fin 16) :
    val_main_v43 (F := Ideal) x0 x1 x2 x6 (ix2 n k)
      = layR (hitE x6) (rowE (srcW x6)) (rowE (dstW x6)) (disE x6) (fun a c => x0 (ix2 a c)) (fun c j => x1 (ix2 c j))
          (fun j => x2 (ix1 j)) n k :=
  layer_at x6 (val_main_v38 (F := Ideal)) (val_main_v39 (F := Ideal) x6) (val_main_v34 (F := Ideal) x0 x1 x6)
    (val_main_v36 (F := Ideal) x6) (val_main_v42 (F := Ideal) x2) (fun a k => val_main_v12 (F := Ideal) x0 x1 (ix2 a k))
    (fun j => x2 (ix1 j)) (fun a c => x0 (ix2 a c)) (fun c j => x1 (ix2 c j))
    zero1_at (dstC_eq x6) (rows1_at x0 x1 x6) (weight1_at x6) (bias1_at x2) (prod1_at x0 x1) n k

/-- The hidden table: the first layer followed by a maximum with zero. -/
theorem hidden_at (n : Fin 100000) (k : Fin 16) :
    val_main_v44 (F := Ideal) x0 x1 x2 x6 (ix2 n k)
      = max (layR (hitE x6) (rowE (srcW x6)) (rowE (dstW x6)) (disE x6) (fun a c => x0 (ix2 a c))
          (fun c j => x1 (ix2 c j)) (fun j => x2 (ix1 j)) n k) 0 := by
  rw [val_main_v44_apply, pre1_at, val_main_call0_v0_apply, val_main_call0_cst_apply, Ideal.maximumf_def, Ideal.ofBits_def,
    Ideal.ofBits_zero_f32]

/-- The second dense product at (a, k): the hidden table's row a against column k of the second weights. -/
theorem prod2_at (a : Fin 100000) (k : Fin 16) :
    val_main_v45 (F := Ideal) x0 x1 x2 x3 x6 (ix2 a k)
      = ∑ c : Fin 16, max (layR (hitE x6) (rowE (srcW x6)) (rowE (dstW x6)) (disE x6) (fun a c => x0 (ix2 a c))
          (fun c j => x1 (ix2 c j)) (fun j => x2 (ix1 j)) a c) 0 * x3 (ix2 c k) := by
  rw [val_main_v45_apply]
  refine Finset.sum_congr rfl fun c _ => ?_
  have hl : lidx_main_v45 (ix2 a k) c = ix2 a c := funext fun d => match d with | ⟨0, _⟩ => rfl | ⟨1, _⟩ => rfl
  have hr : ridx_main_v45 (ix2 a k) c = ix2 c k := funext fun d => match d with | ⟨0, _⟩ => rfl | ⟨1, _⟩ => rfl
  rw [hl, hr, hidden_at]

/-- The second layer's gathered rows: the rows of the second dense product at the sources. -/
theorem rows2_at (e : Fin 3300000) (k : Fin 16) :
    val_main_v67 (F := Ideal) x0 x1 x2 x3 x6 (ix2 e k)
      = val_main_v45 (F := Ideal) x0 x1 x2 x3 x6 (ix2 (rowE (srcW x6) e) k) := by
  unfold val_main_v67
  rw [srcR2_eq, rowG]

/-- THE SECOND LAYER's pre-activation at (n, k). -/
theorem pre2_at (n : Fin 100000) (k : Fin 16) :
    val_main_v76 (F := Ideal) x0 x1 x2 x3 x4 x6 (ix2 n k)
      = layR (hitE x6) (rowE (srcW x6)) (rowE (dstW x6)) (disE x6)
          (fun n' c' => max (layR (hitE x6) (rowE (srcW x6)) (rowE (dstW x6)) (disE x6) (fun a c => x0 (ix2 a c))
            (fun c j => x1 (ix2 c j)) (fun j => x2 (ix1 j)) n' c') 0)
          (fun c j => x3 (ix2 c j)) (fun j => x4 (ix1 j)) n k :=
  layer_at x6 (val_main_v71 (F := Ideal)) (val_main_v72 (F := Ideal) x6) (val_main_v67 (F := Ideal) x0 x1 x2 x3 x6)
    (val_main_v69 (F := Ideal) x6) (val_main_v75 (F := Ideal) x4)
    (fun a k => val_main_v45 (F := Ideal) x0 x1 x2 x3 x6 (ix2 a k)) (fun j => x4 (ix1 j))
    (fun n' c' => max (layR (hitE x6) (rowE (srcW x6)) (rowE (dstW x6)) (disE x6) (fun a c => x0 (ix2 a c))
      (fun c j => x1 (ix2 c j)) (fun j => x2 (ix1 j)) n' c') 0)
    (fun c j => x3 (ix2 c j))
    zero2_at (dstC2_eq x6) (rows2_at x0 x1 x2 x3 x6) (weight2_at x6) (bias2_at x4) (prod2_at x0 x1 x2 x3 x6) n k

end Pieces

/-! ## The result -/

/-- THE REFERENCE'S LAST STAGE AT (n, k) is outR of the argument arrays. -/
theorem val_apply (x0 : FV S100000x512) (x1 : FV S512x16) (x2 : FV S16) (x3 : FV S16x16) (x4 : FV S16)
    (x5 : FV S100000x16) (x6 : IV S2x3200000) (n : Fin 100000) (k : Fin 16) :
    val_main_v81 (F := Ideal) x0 x1 x2 x3 x4 x5 x6 (ix2 n k) = outR x6 x0 x1 x2 x3 x4 x5 n k := by
  rw [val_main_v81_apply, val_main_v80_apply, val_main_v79_apply, val_main_v78_apply, val_main_v77_apply,
    val_main_cst_14_apply, pre2_at]
  unfold outR half
  rw [Ideal.addf_def, Ideal.mulf_def, Ideal.hostUnary_exp_def, Ideal.mulf_def, Ideal.ofBits_def]

/-- THE REFERENCE'S RESULT AT (n, k) is outR of the arguments as the run finds them. -/
theorem ref_apply (m : (ℓ : Loc nD τ sig) → Buf (Elt Ideal) ℓ) (c : Dev nD) (n : Fin 100000) (k : Fin 16) :
    (Cert.ReferenceIdeal.Value.res_main_v81 (F := Ideal) m c : S100000x16.Idx → EReal) (ix2 n k)
      = outR (m ((c.tc : Thread nD τ).loc main_arg6)) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) n k := by
  rw [val_main_v81_eq]
  exact val_apply _ _ _ _ _ _ _ n k

end Cert.Gcn.RRead

end
-- ==== Proof.lean ====
/-
  A two-layer graph convolution with self-loops and a reparameterised output, on 100000 nodes with 512 input features,
  16 hidden and 16 output features and 3200000 edges: the blocked kernel program against the edge-by-edge reference.

  Both programs extend the edge lists by one self-loop per node, count the edges into each node (deg) and take
  dis = deg^(-1/2). A layer's pre-activation at node n, feature k is, in the reference,
      (sum over edges e into n of (f W)(src e, k) · (dis(src e) · dis(dst e))) + b(k),
  and in the kernel program
      (sum over edges e into n of ((f W)(src e, k) · dis(src e))) · dis(n) + b(k):
  the dense product is scaled by dis row by row inside the first and third kernels, the edge sum is a row lookup followed
  by an additive scatter, and the second scaling, the bias and the activation (max(·, 0) after the first layer,
  z + eps · exp(z / 2) after the second) are computed by the second and fourth kernels on a lane-dense re-layout
  [100000, 16] -> [12500, 128] of the node tables.

  The two arrangements agree because an edge into n has destination n, so dis(dst e) = dis(n) is a common factor of
  the edge sum into n. Pulling it out is a law of the real numbers, not of the extended reals, so the proof uses the
  precondition: every float input is finite, the degrees are real numbers ≥ 1 thanks to the self-loops, hence dis is
  real, and every intermediate table is real.

  The modules: KSpec (the kernel program's value as one composed function), Formula (both arrangements index by
  index), Lin0 / Lin2 and Whole13 (each kernel's output array as a function of its input arrays), KRun and Chain (the
  kernel program's run and its nine segment boundaries composed into KSpec's function), KRead and RRead (the two
  programs' values read at one element), IdxFacts (destination rows, self-loops, real dis), Finite (real inputs from
  the precondition), Law (the two arrangements agree on real entries), Assemble (the claims from these).
-/
import proofs.«162427_j48808008351905_2_alg».proof.Defs
import proofs.«162427_j48808008351905_2_alg».proof.Proof.Gen.Kernel
import proofs.«162427_j48808008351905_2_alg».proof.Proof.Gen.Kernel.Skeleton
import proofs.«162427_j48808008351905_2_alg».proof.Proof.Gen.Kernel.Launch
import proofs.«162427_j48808008351905_2_alg».proof.Proof.Gen.Kernel.Points
import proofs.«162427_j48808008351905_2_alg».proof.Proof.Gen.Kernel.Frame
import proofs.«162427_j48808008351905_2_alg».proof.Proof.Gen.KernelIdeal
import proofs.«162427_j48808008351905_2_alg».proof.Proof.Gen.KernelIdeal.Skeleton
import proofs.«162427_j48808008351905_2_alg».proof.Proof.Gen.KernelIdeal.Launch
import proofs.«162427_j48808008351905_2_alg».proof.Proof.Gen.KernelIdeal.Points
import proofs.«162427_j48808008351905_2_alg».proof.Proof.Gen.KernelIdeal.Frame
import proofs.«162427_j48808008351905_2_alg».proof.Proof.Gen.ReferenceIdeal
import proofs.«162427_j48808008351905_2_alg».proof.Proof.Gen.Pre_finite_inputs
import proofs.«162427_j48808008351905_2_alg».proof.Proof.Gen.ReferenceIdeal.Run
import proofs.«162427_j48808008351905_2_alg».proof.Proof.Gen.ReferenceIdeal.Read
import proofs.«162427_j48808008351905_2_alg».proof.Proof.Assemble
import proofs.«162427_j48808008351905_2_alg».proof.Proof.Chain
import proofs.«162427_j48808008351905_2_alg».proof.Proof.Lin0
import proofs.«162427_j48808008351905_2_alg».proof.Proof.Lin2
import proofs.«162427_j48808008351905_2_alg».proof.Proof.Whole13
import proofs.«162427_j48808008351905_2_alg».proof.Proof.KRead
import proofs.«162427_j48808008351905_2_alg».proof.Proof.RRead
import proofs.«162427_j48808008351905_2_alg».proof.Proof.IdxFacts
import Idealize.ShloMosaic.Adequacy
import Idealize.ShloMosaic.Init

noncomputable section

namespace Cert.Proof

open Idealize.ShloMosaic Idealize.SL.Sem Cert.Kernel

/-- The five claims: the three frames, the (empty) idealisation ledger, and the equality of the two results — the
    kernel program's result array is the composed function of its arguments (the nine segment boundaries chained, each
    kernel's output array supplied by its region's theorem), which agrees element by element with the reference's. -/
theorem claim : Cert.Claim :=
  ⟨Cert.Kernel.Gen.facts, Cert.KernelIdeal.Gen.facts, Cert.ReferenceIdeal.Gen.facts, Cert.Pre_finite_inputs.Gen.facts,
    Cert.Gcn.Assemble.frame_Kernel, Cert.Gcn.Assemble.frame_KernelIdeal, Cert.Gcn.Assemble.frame_ReferenceIdeal, trivial,
    Cert.Gcn.Assemble.algebraic
      (fun m ρ c => Cert.Gcn.Chain.kernel_value m ρ c (fun V c => Cert.Gcn.Lin0.final0 V c) (fun V c => Cert.Gcn.Whole.final1 V c)
        (fun V c => Cert.Gcn.Lin2.final2 V c) (fun V c => Cert.Gcn.Whole.final3 V c))
      Cert.Gcn.KRead.KTerm_apply Cert.Gcn.RRead.ref_apply Cert.Gcn.disE_isReal⟩

end Cert.Proof

end
